-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3703 : Shape := ⟨2, ![50000, 3703]⟩
abbrev S400000 : Shape := ⟨1, ![400000]⟩
abbrev S3703x256 : Shape := ⟨2, ![3703, 256]⟩
abbrev S256 : Shape := ⟨1, ![256]⟩
abbrev S256x6 : Shape := ⟨2, ![256, 6]⟩
abbrev S6 : Shape := ⟨1, ![6]⟩
abbrev S_ : Shape := ⟨0, ![]⟩

class Facts : Prop where
  bcast_S_S50000x3703 : S_.BroadcastsInDim S50000x3703 (![] : Fin 0 → Fin S50000x3703.rank)
  reducesTo_S50000x3703_S_d0_1 : S50000x3703.ReducesTo [0, 1] S_
  h_S_ : 0 < S_.numel
  bcast_S_S400000 : S_.BroadcastsInDim S400000 (![] : Fin 0 → Fin S400000.rank)
  reducesTo_S400000_S_d0 : S400000.ReducesTo [0] S_
  bcast_S_S3703x256 : S_.BroadcastsInDim S3703x256 (![] : Fin 0 → Fin S3703x256.rank)
  reducesTo_S3703x256_S_d0_1 : S3703x256.ReducesTo [0, 1] S_
  bcast_S_S256 : S_.BroadcastsInDim S256 (![] : Fin 0 → Fin S256.rank)
  reducesTo_S256_S_d0 : S256.ReducesTo [0] S_
  bcast_S_S256x6 : S_.BroadcastsInDim S256x6 (![] : Fin 0 → Fin S256x6.rank)
  reducesTo_S256x6_S_d0_1 : S256x6.ReducesTo [0, 1] S_
  bcast_S_S6 : S_.BroadcastsInDim S6 (![] : Fin 0 → Fin S6.rank)
  reducesTo_S6_S_d0 : S6.ReducesTo [0] S_

variable [Facts]

def fn_part1 {F : FTy → Type} [FloatOps F] (main_arg6 : FVec F S256x6 .f32) (main_arg7 : FVec F S6 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x6 .f32 := Host.absf main_arg6
  let main_cst_6 : FVec F S_ .f32 := constant S_ .f32 0x7F800000#32
  let main_v20 : FVec F S256x6 .f32 := broadcastInDim S256x6 ![] bcast_S_S256x6 main_cst_6
  let main_v21 : IVec S256x6 1 := cmpf .olt main_v19 main_v20
  let main_c_7 : IVec S_ 1 := constantI S_ 1 1#1
  let main_v22 : IVec S_ 1 := (fun x v => Host.reduce IntOp.andi x v reducesTo_S256x6_S_d0_1 h_S_) main_v21 main_c_7
  let main_v23 : IVec S_ 1 := andi main_v18 main_v22
  let main_v24 : FVec F S6 .f32 := Host.absf main_arg7
  let main_cst_8 : FVec F S_ .f32 := constant S_ .f32 0x7F800000#32
  let main_v25 : FVec F S6 .f32 := broadcastInDim S6 ![] bcast_S_S6 main_cst_8
  let main_v26 : IVec S6 1 := cmpf .olt main_v24 main_v25
  let main_c_9 : IVec S_ 1 := constantI S_ 1 1#1
  let main_v27 : IVec S_ 1 := (fun x v => Host.reduce IntOp.andi x v reducesTo_S6_S_d0 h_S_) main_v26 main_c_9
  let main_v28 : IVec S_ 1 := andi main_v23 main_v27
  main_v28

def fn {F : FTy → Type} [FloatOps F] (main_arg0 : FVec F S50000x3703 .f32) (main_arg1 : IVec S400000 32) (main_arg2 : IVec S400000 32) (main_arg3 : FVec F S400000 .f32) (main_arg4 : FVec F S3703x256 .f32) (main_arg5 : FVec F S256 .f32) (main_arg6 : FVec F S256x6 .f32) (main_arg7 : FVec F S6 .f32) : IVec S_ 1 :=
  let main_v0 : FVec F S50000x3703 .f32 := Host.absf main_arg0
  let main_cst : FVec F S_ .f32 := constant S_ .f32 0x7F800000#32
  let main_v1 : FVec F S50000x3703 .f32 := broadcastInDim S50000x3703 ![] bcast_S_S50000x3703 main_cst
  let main_v2 : IVec S50000x3703 1 := cmpf .olt main_v0 main_v1
  let main_c : IVec S_ 1 := constantI S_ 1 1#1
  let main_v3 : IVec S_ 1 := (fun x v => Host.reduce IntOp.andi x v reducesTo_S50000x3703_S_d0_1 h_S_) main_v2 main_c
  let main_v4 : FVec F S400000 .f32 := Host.absf main_arg3
  let main_cst_0 : FVec F S_ .f32 := constant S_ .f32 0x7F800000#32
  let main_v5 : FVec F S400000 .f32 := broadcastInDim S400000 ![] bcast_S_S400000 main_cst_0
  let main_v6 : IVec S400000 1 := cmpf .olt main_v4 main_v5
  let main_c_1 : IVec S_ 1 := constantI S_ 1 1#1
  let main_v7 : IVec S_ 1 := (fun x v => Host.reduce IntOp.andi x v reducesTo_S400000_S_d0 h_S_) main_v6 main_c_1
  let main_v8 : IVec S_ 1 := andi main_v3 main_v7
  let main_v9 : FVec F S3703x256 .f32 := Host.absf main_arg4
  let main_cst_2 : FVec F S_ .f32 := constant S_ .f32 0x7F800000#32
  let main_v10 : FVec F S3703x256 .f32 := broadcastInDim S3703x256 ![] bcast_S_S3703x256 main_cst_2
  let main_v11 : IVec S3703x256 1 := cmpf .olt main_v9 main_v10
  let main_c_3 : IVec S_ 1 := constantI S_ 1 1#1
  let main_v12 : IVec S_ 1 := (fun x v => Host.reduce IntOp.andi x v reducesTo_S3703x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x3703 : Shape := ⟨2, ![50000, 3703]⟩
abbrev S400000 : Shape := ⟨1, ![400000]⟩
abbrev S3703x256 : Shape := ⟨2, ![3703, 256]⟩
abbrev S256 : Shape := ⟨1, ![256]⟩
abbrev S256x6 : Shape := ⟨2, ![256, 6]⟩
abbrev S6 : Shape := ⟨1, ![6]⟩
abbrev S50000x256 : Shape := ⟨2, ![50000, 256]⟩
abbrev S1000x3703 : Shape := ⟨2, ![1000, 3703]⟩
abbrev S1000x256 : Shape := ⟨2, ![1000, 256]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S50000x6 : Shape := ⟨2, ![50000, 6]⟩
abbrev S5000x256 : Shape := ⟨2, ![5000, 256]⟩
abbrev S5000x6 : Shape := ⟨2, ![5000, 6]⟩
abbrev S400000x6 : Shape := ⟨2, ![400000, 6]⟩
abbrev S1x6 : Shape := ⟨2, ![1, 6]⟩
abbrev S50000 : Shape := ⟨1, ![50000]⟩
abbrev S50000x1 : Shape := ⟨2, ![50000, 1]⟩

abbrev nBuf : Space → Nat
  | .hbm => 73
  | .vmem => 10
  | .smem => 0
  | _ => 0

abbrev bufTy : (tb : Table) → Fin (tcTables nBuf tb) → BufTy
  | .hbm, ⟨0, _⟩ => ⟨S50000x3703, .f32⟩
  | .hbm, ⟨1, _⟩ => ⟨S400000, .i32⟩
  | .hbm, ⟨2, _⟩ => ⟨S400000, .i32⟩
  | .hbm, ⟨3, _⟩ => ⟨S400000, .f32⟩
  | .hbm, ⟨4, _⟩ => ⟨S3703x256, .f32⟩
  | .hbm, ⟨5, _⟩ => ⟨S256, .f32⟩
  | .hbm, ⟨6, _⟩ => ⟨S256x6, .f32⟩
  | .hbm, ⟨7, _⟩ => ⟨S6, .f32⟩
  | .hbm, ⟨8, _⟩ => ⟨S3703x256, .bf16⟩
  | .hbm, ⟨9, _⟩ => ⟨S256x6, .bf16⟩
  | .hbm, ⟨10, _⟩ => ⟨S50000x256, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x256, .f32⟩
  | .hbm, ⟨20, _⟩ => ⟨S400000x1, .f32⟩
  | .hbm, ⟨21, _⟩ => ⟨S400000x256, .f32⟩
  | .hbm, ⟨22, _⟩ => ⟨S400000x256, .f32⟩
  | .hbm, ⟨23, _⟩ => ⟨S_, .f32⟩
  | .hbm, ⟨24, _⟩ => ⟨S50000x256, .f32⟩
  | .hbm, ⟨25, _⟩ => ⟨S400000x1, .i32⟩
  | .hbm, ⟨26, _⟩ => ⟨S50000x256, .f32⟩
  | .hbm, ⟨27, _⟩ => ⟨S1x256, .f32⟩
  | .hbm, ⟨28, _⟩ => ⟨S50000x256, .f32⟩
  | .hbm, ⟨29, _⟩ => ⟨S50000x256, .f32⟩
  | .hbm, ⟨30, _⟩ => ⟨S_, .f32⟩
  | .hbm, ⟨31, _⟩ => ⟨S_, .f32⟩
  | .hbm, ⟨32, _⟩ => ⟨S50000x256, .f32⟩
  | .hbm, ⟨33, _⟩ => ⟨S50000x256, .i1⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S50000x6, .f32⟩
  | .hbm, ⟨39, _⟩ => ⟨S_, .i32⟩
  | .hbm, ⟨40, _⟩ => ⟨S400000, .i32⟩
  | .hbm, ⟨41, _⟩ => ⟨S400000, .i1⟩
  | .hbm, ⟨42, _⟩ => ⟨S_, .i32⟩
  | .hbm, ⟨43, _⟩ => ⟨S400000, .i32⟩
  | .hbm, ⟨44, _⟩ => ⟨S400000, .i32⟩
  | .hbm, ⟨45, _⟩ => ⟨S400000, .i32⟩
  | .hbm, ⟨46, _⟩ => ⟨S400000x1, .i32⟩
  | .hbm, ⟨47, _⟩ => ⟨S400000x6, .f32⟩
  | .hbm, ⟨48, _⟩ => ⟨S400000x1, .f32⟩
  | .hbm, ⟨49, _⟩ => ⟨S400000x6, .f32⟩
  | .hbm, ⟨50, _⟩ => ⟨S400000x6, .f32⟩
  | .hbm, ⟨51, _⟩ => ⟨S_, .f32⟩
  | .hbm, ⟨52, _⟩ => ⟨S50000x6, .f32⟩
  | .hbm, ⟨53, _⟩ => ⟨S400000x1, .i32⟩
  | .hbm, ⟨54, _⟩ => ⟨S50000x6, .f32⟩
  | .hbm, ⟨55, _⟩ => ⟨S1x6, .f32⟩
  | .hbm, ⟨56, _⟩ => ⟨S50000x6, .f32⟩
  | .hbm, ⟨57, _⟩ => ⟨S50000x6, .f32⟩
  | .hbm, ⟨58, _⟩ => ⟨S_, .f32⟩
  | .hbm, ⟨59, _⟩ => ⟨S50000, .f32⟩
  | .hbm, ⟨60, _⟩ => ⟨S_, .f32⟩
  | .hbm, ⟨61, _⟩ => ⟨S50000, .f32⟩
  | .hbm, ⟨62, _⟩ => ⟨S50000, .f32⟩
  | .hbm, ⟨63, _⟩ => ⟨S50000x1, .f32⟩
  | .hbm, ⟨64, _⟩ => ⟨S50000x6, .f32⟩
  | .hbm, ⟨65, _⟩ => ⟨S50000x6, .f32⟩
  | .hbm, ⟨66, _⟩ => ⟨S50000x6, .f32⟩
  | .hbm, ⟨67, _⟩ => ⟨S_, .f32⟩
  | .hbm, ⟨68, _⟩ => ⟨S50000, .f32⟩
  | .hbm, ⟨69, _⟩ => ⟨S50000x1, .f32⟩
  | .hbm, ⟨70, _⟩ => ⟨S50000x1, .f32⟩
  | .hbm, ⟨71, _⟩ => ⟨S50000x6, .f32⟩
  | .hbm, ⟨72, _⟩ => ⟨S50000x6, .f32⟩
  | .local _ .vmem, ⟨0, _⟩ => ⟨S1000x3703, .f32⟩
  | .local _ .vmem, ⟨1, _⟩ => ⟨S1000x3703, .f32⟩
  | .local _ .vmem, ⟨2, _⟩ => ⟨S3703x256, .bf16⟩
  | .local _ .vmem, ⟨3, _⟩ => ⟨S1000x256, .f32⟩
  | .local _ .vmem, ⟨4, _⟩ => ⟨S1000x256, .f32⟩
  | .local _ .vmem, ⟨5, _⟩ => ⟨S5000x256, .f32⟩
  | .local _ .vmem, ⟨6, _⟩ => ⟨S5000x256, .f32⟩
  | .local _ .vmem, ⟨7, _⟩ => ⟨S256x6, .bf16⟩
  | .local _ .vmem, ⟨8, _⟩ => ⟨S5000x6, .f32⟩
  | .local _ .vmem, ⟨9, _⟩ => ⟨S5000x6, .f32⟩
  | _, _ => ⟨S50000x3703, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v37 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3703 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3703x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x6 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x6 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S1000x3703_S1000x3703_0_0 : ∀ a, (![0, 0] : Fin 2 → Nat) a + S1000x3703.size a ≤ S1000x3703.size a
  h_S1000x3703 : 0 < S1000x3703.numel
  inb_S3703x256_S3703x256_0_0 : ∀ a, (![0, 0] : Fin 2 → Nat) a + S3703x256.size a ≤ S3703x256.size a
  h_S3703x256 : 0 < S3703x256.numel
  shapeCasts_S3703x256_S3703x256 : S3703x256.ShapeCasts S3703x256
  inb_S1000x256_S1000x256_0_0 : ∀ a, (![0, 0] : Fin 2 → Nat) a + S1000x256.size a ≤ S1000x256.size a
  h_S1000x256 : 0 < S1000x256.numel
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x6_S256x6_0_0 : ∀ a, (![0, 0] : Fin 2 → Nat) a + S256x6.size a ≤ S256x6.size a
  h_S256x6 : 0 < S256x6.numel
  shapeCasts_S256x6_S256x6 : S256x6.ShapeCasts S256x6
  inb_S5000x6_S5000x6_0_0 : ∀ a, (![0, 0] : Fin 2 → Nat) a + S5000x6.size a ≤ S5000x6.size a
  h_S5000x6 : 0 < S5000x6.numel
  bcast_S400000x1_S400000x6_0_1 : S400000x1.BroadcastsInDim S400000x6 (![0, 1] : Fin 2 → Fin S400000x6.rank)
  bcast_S_S50000x6 : S_.BroadcastsInDim S50000x6 (![] : Fin 0 → Fin S50000x6.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  reducesTo_S50000x6_S50000_d1 : S50000x6.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  dot_S1000x3703_S3703x256_S1000x256_1_0_0_1_n_n_wf : DotDims.WF S1000x3703 S3703x256 S1000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S5000x256_S256x6_S5000x6_1_0_0_1_n_n_wf : DotDims.WF S5000x256 S256x6 S5000x6 [1] [0] [0] [1] [] []
  gather_S50000x6_S400000x1_S400000x6_1_0_n_n_0_1_16_wf : GatherDims.WF S50000x6 S400000x1 S400000x6 [1] [0] [] [0] [] 1 ![1, 6]
  scatter_S50000x6_S400000x1_S400000x6_1_0_0_1_wf : ScatterDims.WF S50000x6 S400000x1 S400000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3703.size a ≤ S50000x3703.size a
  hwx0_0 : ∀ i : grid0.Coords, EltTy.bits .f32 = 32 ∨ (Rect.block (s := S50000x3703) S1000x3703.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3703x256.size a ≤ S3703x256.size a
  hwx0_1 : ∀ i : grid0.Coords, EltTy.bits .bf16 = 32 ∨ (Rect.block (s := S3703x256) S3703x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x256.size a ≤ S50000x256.size a
  hwx0_2 : ∀ i : grid0.Coords, EltTy.bits .f32 = 32 ∨ (Rect.block (s := S50000x256) S1000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x6.size a ≤ S256x6.size a
  hwx1_1 : ∀ i : grid1.Coords, EltTy.bits .bf16 = 32 ∨ (Rect.block (s := S256x6) S256x6.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x6.size a ≤ S50000x6.size a
  hwx1_2 : ∀ i : grid1.Coords, EltTy.bits .f32 = 32 ∨ (Rect.block (s := S50000x6) S5000x6.size (cc1_transform_2 i) (hinb1_2 i)).WholeWords (EltTy.packing .f32)

variable [Facts₀]

def dot_S1000x3703_S3703x256_S1000x256_1_0_0_1_n_n : DotDims S1000x3703 S3703x256 S1000x256 where
  lhsContracting := [1]
  rhsContracting := [0]
  lhsNonContracting := [0]
  rhsNonContracting := [1]
  lhsBatch := []
  rhsBatch := []
  wf := dot_S1000x3703_S3703x256_S1000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S5000x256_S256x6_S5000x6_1_0_0_1_n_n : DotDims S5000x256 S256x6 S5000x6 where
  lhsContracting := [1]
  rhsContracting := [0]
  lhsNonContracting := [0]
  rhsNonContracting := [1]
  lhsBatch := []
  rhsBatch := []
  wf := dot_S5000x256_S256x6_S5000x6_1_0_0_1_n_n_wf
def gather_S50000x6_S400000x1_S400000x6_1_0_n_n_0_1_16 : GatherDims S50000x6 S400000x1 S400000x6 where
  offsetDims := [1]
  collapsedSliceDims := [0]
  operandBatchingDims := []
  startIndicesBatchingDims := []
  startIndexMap := [0]
  indexVectorDim := 1
  sliceSizes := ![1, 6]
  wf := gather_S50000x6_S400000x1_S400000x6_1_0_n_n_0_1_16_wf
def scatter_S50000x6_S400000x1_S400000x6_1_0_0_1 : ScatterDims S50000x6 S400000x1 S400000x6 where
  updateWindowDims := [1]
  insertedWindowDims := [0]
  scatterDimsToOperandDims := [0]
  indexVectorDim := 1
  wf := scatter_S50000x6_S400000x1_S400000x6_1_0_0_1_wf

abbrev win0_0 : Pipeline.Window sig grid0 :=
  Pipeline.Window.ofSpec (Memref.whole main_arg0) S1000x3703.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3703x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x6.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x6.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x3703 : Shape := ⟨2, ![50000, 3703]⟩
abbrev S400000 : Shape := ⟨1, ![400000]⟩
abbrev S3703x256 : Shape := ⟨2, ![3703, 256]⟩
abbrev S256 : Shape := ⟨1, ![256]⟩
abbrev S256x6 : Shape := ⟨2, ![256, 6]⟩
abbrev S6 : Shape := ⟨1, ![6]⟩
abbrev S50000x256 : Shape := ⟨2, ![50000, 256]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩
abbrev S50000x6 : Shape := ⟨2, ![50000, 6]⟩
abbrev S400000x6 : Shape := ⟨2, ![400000, 6]⟩
abbrev S1x6 : Shape := ⟨2, ![1, 6]⟩
abbrev S50000 : Shape := ⟨1, ![50000]⟩
abbrev S50000x1 : Shape := ⟨2, ![50000, 1]⟩

abbrev nBuf : Space → Nat
  | .hbm => 71
  | .vmem => 0
  | .smem => 0
  | _ => 0

abbrev bufTy : (tb : Table) → Fin (tcTables nBuf tb) → BufTy
  | .hbm, ⟨0, _⟩ => ⟨S50000x3703, .f32⟩
  | .hbm, ⟨1, _⟩ => ⟨S400000, .i32⟩
  | .hbm, ⟨2, _⟩ => ⟨S400000, .i32⟩
  | .hbm, ⟨3, _⟩ => ⟨S400000, .f32⟩
  | .hbm, ⟨4, _⟩ => ⟨S3703x256, .f32⟩
  | .hbm, ⟨5, _⟩ => ⟨S256, .f32⟩
  | .hbm, ⟨6, _⟩ => ⟨S256x6, .f32⟩
  | .hbm, ⟨7, _⟩ => ⟨S6, .f32⟩
  | .hbm, ⟨8, _⟩ => ⟨S50000x256, .f32⟩
  | .hbm, ⟨9, _⟩ => ⟨S_, .i32⟩
  | .hbm, ⟨10, _⟩ => ⟨S400000, .i32⟩
  | .hbm, ⟨11, _⟩ => ⟨S400000, .i1⟩
  | .hbm, ⟨12, _⟩ => ⟨S_, .i32⟩
  | .hbm, ⟨13, _⟩ => ⟨S400000, .i32⟩
  | .hbm, ⟨14, _⟩ => ⟨S400000, .i32⟩
  | .hbm, ⟨15, _⟩ => ⟨S400000, .i32⟩
  | .hbm, ⟨16, _⟩ => ⟨S400000x1, .i32⟩
  | .hbm, ⟨17, _⟩ => ⟨S400000x256, .f32⟩
  | .hbm, ⟨18, _⟩ => ⟨S400000x1, .f32⟩
  | .hbm, ⟨19, _⟩ => ⟨S400000x256, .f32⟩
  | .hbm, ⟨20, _⟩ => ⟨S400000x256, .f32⟩
  | .hbm, ⟨21, _⟩ => ⟨S_, .f32⟩
  | .hbm, ⟨22, _⟩ => ⟨S50000x256, .f32⟩
  | .hbm, ⟨23, _⟩ => ⟨S400000x1, .i32⟩
  | .hbm, ⟨24, _⟩ => ⟨S50000x256, .f32⟩
  | .hbm, ⟨25, _⟩ => ⟨S1x256, .f32⟩
  | .hbm, ⟨26, _⟩ => ⟨S50000x256, .f32⟩
  | .hbm, ⟨27, _⟩ => ⟨S50000x256, .f32⟩
  | .hbm, ⟨28, _⟩ => ⟨S_, .f32⟩
  | .hbm, ⟨29, _⟩ => ⟨S_, .f32⟩
  | .hbm, ⟨30, _⟩ => ⟨S50000x256, .f32⟩
  | .hbm, ⟨31, _⟩ => ⟨S50000x256, .i1⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x6, .f32⟩
  | .hbm, ⟨37, _⟩ => ⟨S_, .i32⟩
  | .hbm, ⟨38, _⟩ => ⟨S400000, .i32⟩
  | .hbm, ⟨39, _⟩ => ⟨S400000, .i1⟩
  | .hbm, ⟨40, _⟩ => ⟨S_, .i32⟩
  | .hbm, ⟨41, _⟩ => ⟨S400000, .i32⟩
  | .hbm, ⟨42, _⟩ => ⟨S400000, .i32⟩
  | .hbm, ⟨43, _⟩ => ⟨S400000, .i32⟩
  | .hbm, ⟨44, _⟩ => ⟨S400000x1, .i32⟩
  | .hbm, ⟨45, _⟩ => ⟨S400000x6, .f32⟩
  | .hbm, ⟨46, _⟩ => ⟨S400000x1, .f32⟩
  | .hbm, ⟨47, _⟩ => ⟨S400000x6, .f32⟩
  | .hbm, ⟨48, _⟩ => ⟨S400000x6, .f32⟩
  | .hbm, ⟨49, _⟩ => ⟨S_, .f32⟩
  | .hbm, ⟨50, _⟩ => ⟨S50000x6, .f32⟩
  | .hbm, ⟨51, _⟩ => ⟨S400000x1, .i32⟩
  | .hbm, ⟨52, _⟩ => ⟨S50000x6, .f32⟩
  | .hbm, ⟨53, _⟩ => ⟨S1x6, .f32⟩
  | .hbm, ⟨54, _⟩ => ⟨S50000x6, .f32⟩
  | .hbm, ⟨55, _⟩ => ⟨S50000x6, .f32⟩
  | .hbm, ⟨56, _⟩ => ⟨S_, .f32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x6, .f32⟩
  | .hbm, ⟨63, _⟩ => ⟨S50000x6, .f32⟩
  | .hbm, ⟨64, _⟩ => ⟨S50000x6, .f32⟩
  | .hbm, ⟨65, _⟩ => ⟨S_, .f32⟩
  | .hbm, ⟨66, _⟩ => ⟨S50000, .f32⟩
  | .hbm, ⟨67, _⟩ => ⟨S50000x1, .f32⟩
  | .hbm, ⟨68, _⟩ => ⟨S50000x1, .f32⟩
  | .hbm, ⟨69, _⟩ => ⟨S50000x6, .f32⟩
  | .hbm, ⟨70, _⟩ => ⟨S50000x6, .f32⟩
  | _, _ => ⟨S50000x3703, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_c_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call1_cst : Ref sig .tc := ⟨.hbm, 56, rfl⟩
abbrev main_call1_v0 : Ref sig .tc := ⟨.hbm, 57, rfl⟩
abbrev main_call1_cst_0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_cst_1 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_v35 : Ref sig .tc := ⟨.hbm, 70, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x256_0_1 : S400000x1.BroadcastsInDim S400000x256 (![0, 1] : Fin 2 → Fin S400000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S400000x1_S400000x6_0_1 : S400000x1.BroadcastsInDim S400000x6 (![0, 1] : Fin 2 → Fin S400000x6.rank)
  bcast_S_S50000x6 : S_.BroadcastsInDim S50000x6 (![] : Fin 0 → Fin S50000x6.rank)
  bcast_S6_S1x6_1 : S6.BroadcastsInDim S1x6 (![1] : Fin 1 → Fin S1x6.rank)
  bcast_S1x6_S50000x6_0_1 : S1x6.BroadcastsInDim S50000x6 (![0, 1] : Fin 2 → Fin S50000x6.rank)
  reducesTo_S50000x6_S50000_d1 : S50000x6.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x6_0_1 : S50000x1.BroadcastsInDim S50000x6 (![0, 1] : Fin 2 → Fin S50000x6.rank)
  dot_S50000x3703_S3703x256_S50000x256_1_0_0_1_n_n_wf : DotDims.WF S50000x3703 S3703x256 S50000x256 [1] [0] [0] [1] [] []
  gather_S50000x256_S400000x1_S400000x256_1_0_n_n_0_1_1256_wf : GatherDims.WF S50000x256 S400000x1 S400000x256 [1] [0] [] [0] [] 1 ![1, 256]
  scatter_S50000x256_S400000x1_S400000x256_1_0_0_1_wf : ScatterDims.WF S50000x256 S400000x1 S400000x256 [1] [0] [0] 1
  dot_S50000x256_S256x6_S50000x6_1_0_0_1_n_n_wf : DotDims.WF S50000x256 S256x6 S50000x6 [1] [0] [0] [1] [] []
  gather_S50000x6_S400000x1_S400000x6_1_0_n_n_0_1_16_wf : GatherDims.WF S50000x6 S400000x1 S400000x6 [1] [0] [] [0] [] 1 ![1, 6]
  scatter_S50000x6_S400000x1_S400000x6_1_0_0_1_wf : ScatterDims.WF S50000x6 S400000x1 S400000x6 [1] [0] [0] 1

variable [Facts₀]

def dot_S50000x3703_S3703x256_S50000x256_1_0_0_1_n_n : DotDims S50000x3703 S3703x256 S50000x256 where
  lhsContracting := [1]
  rhsContracting := [0]
  lhsNonContracting := [0]
  rhsNonContracting := [1]
  lhsBatch := []
  rhsBatch := []
  wf := dot_S50000x3703_S3703x256_S50000x256_1_0_0_1_n_n_wf
def gather_S50000x256_S400000x1_S400000x256_1_0_n_n_0_1_1256 : GatherDims S50000x256 S400000x1 S400000x256 where
  offsetDims := [1]
  collapsedSliceDims := [0]
  operandBatchingDims := []
  startIndicesBatchingDims := []
  startIndexMap := [0]
  indexVectorDim := 1
  sliceSizes := ![1, 256]
  wf := gather_S50000x256_S400000x1_S400000x256_1_0_n_n_0_1_1256_wf
def scatter_S50000x256_S400000x1_S400000x256_1_0_0_1 : ScatterDims S50000x256 S400000x1 S400000x256 where
  updateWindowDims := [1]
  insertedWindowDims := [0]
  scatterDimsToOperandDims := [0]
  indexVectorDim := 1
  wf := scatter_S50000x256_S400000x1_S400000x256_1_0_0_1_wf
def dot_S50000x256_S256x6_S50000x6_1_0_0_1_n_n : DotDims S50000x256 S256x6 S50000x6 where
  lhsContracting := [1]
  rhsContracting := [0]
  lhsNonContracting := [0]
  rhsNonContracting := [1]
  lhsBatch := []
  rhsBatch := []
  wf := dot_S50000x256_S256x6_S50000x6_1_0_0_1_n_n_wf
def gather_S50000x6_S400000x1_S400000x6_1_0_n_n_0_1_16 : GatherDims S50000x6 S400000x1 S400000x6 where
  offsetDims := [1]
  collapsedSliceDims := [0]
  operandBatchingDims := []
  startIndicesBatchingDims := []
  startIndexMap := [0]
  indexVectorDim := 1
  sliceSizes := ![1, 6]
  wf := gather_S50000x6_S400000x1_S400000x6_1_0_n_n_0_1_16_wf
def scatter_S50000x6_S400000x1_S400000x6_1_0_0_1 : ScatterDims S50000x6 S400000x1 S400000x6 where
  updateWindowDims := [1]
  insertedWindowDims := [0]
  scatterDimsToOperandDims := [0]
  indexVectorDim := 1
  wf := scatter_S50000x6_S400000x1_S400000x6_1_0_0_1_wf

class Facts : Prop extends Facts₀ where

variable [Facts]
-- ==== Proof.HostTail.lean ====
/-
  The part of the two-layer graph network that both programs compute with the same host operations.

  A layer's aggregation takes the dense product s (one row per node), the edge list (source and destination node of
  every edge) and the edge weights w, gathers the source node's row for every edge, scales it by the edge's weight,
  adds the scaled rows into the destination node's row starting from zero, and adds the bias row b:
      agg(s)(v, q) = (∑ over the edges e into v of s(src e, q) · w e) + b q.
  A negative source index is first moved up by the number of nodes, as jnp indexing does. Between the layers stands the
  leaky rectifier with slope 0.01 (h where h ≥ 0, slope · h elsewhere) and after the second the row-wise logarithm of the
  softmax, z − max z − log ∑ exp(z − max z). Both programs apply exactly these operations to the dense products; the
  certificate never opens a gather, a scatter or a reduction: it proves the dense products equal and applies these
  functions to both.
-/
import proofs.«114903_j50697793961993_1_alg».proof.KernelIdeal

noncomputable section

namespace Cert.GcnTail

open Idealize.ShloMosaic Cert.KernelIdeal Cert.KernelIdeal.Facts₀

variable {F : FTy → Type} [FloatOps F] [Cert.KernelIdeal.Facts₀]

/-- The source indices as the gather takes them: a negative index moved up by the number of nodes, one column. -/
def srcIdx (src : IVec S400000 32) : IVec S400000x1 32 :=
  broadcastInDim S400000x1 ![0] bcast_S400000_S400000x1_0
    (select (cmpi .slt src (broadcastInDim S400000 ![] bcast_S_S400000 (constantI S_ 32 0#32)))
      (addi src (broadcastInDim S400000 ![] bcast_S_S400000 (constantI S_ 32 50000#32))) src)

/-- The first layer's aggregation of the dense product `s` over the edges, plus the bias row. -/
def agg1 (s : FVec F S50000x256 .f32) (src dst : IVec S400000 32) (w : FVec F S400000 .f32) (b : FVec F S256 .f32) :
    FVec F S50000x256 .f32 :=
  addf
    (Host.scatterAdd scatter_S50000x256_S400000x1_S400000x256_1_0_0_1
      (broadcastInDim S50000x256 ![] bcast_S_S50000x256 (constant (F := F) S_ .f32 0x00000000#32))
      (broadcastInDim S400000x1 ![0] bcast_S400000_S400000x1_0 dst)
      (mulf (Host.gather gather_S50000x256_S400000x1_S400000x256_1_0_n_n_0_1_1256 s (srcIdx src))
        (broadcastInDim S400000x256 ![0, 1] bcast_S400000x1_S400000x256_0_1
          (broadcastInDim S400000x1 ![0] bcast_S400000_S400000x1_0 w))))
    (broadcastInDim S50000x256 ![0, 1] bcast_S1x256_S50000x256_0_1 (broadcastInDim S1x256 ![1] bcast_S256_S1x256_1 b))

/-- The leaky rectifier with slope 0.01 (the f32 nearest to it), entry by entry. -/
def leaky (h : FVec F S50000x256 .f32) : FVec F S50000x256 .f32 :=
  select (cmpf .oge h (broadcastInDim S50000x256 ![] bcast_S_S50000x256 (constant (F := F) S_ .f32 0x00000000#32))) h
    (mulf (broadcastInDim S50000x256 ![] bcast_S_S50000x256 (id (constant (F := F) S_ .f32 0x3C23D70A#32))) h)

/-- The second layer's aggregation of the dense product `s` over the edges, plus the bias row. -/
def agg2 (s : FVec F S50000x6 .f32) (src dst : IVec S400000 32) (w : FVec F S400000 .f32) (b : FVec F S6 .f32) :
    FVec F S50000x6 .f32 :=
  addf
    (Host.scatterAdd scatter_S50000x6_S400000x1_S400000x6_1_0_0_1
      (broadcastInDim S50000x6 ![] bcast_S_S50000x6 (constant (F := F) S_ .f32 0x00000000#32))
      (broadcastInDim S400000x1 ![0] bcast_S400000_S400000x1_0 dst)
      (mulf (Host.gather gather_S50000x6_S400000x1_S400000x6_1_0_n_n_0_1_16 s (srcIdx src))
        (broadcastInDim S400000x6 ![0, 1] bcast_S400000x1_S400000x6_0_1
          (broadcastInDim S400000x1 ![0] bcast_S400000_S400000x1_0 w))))
    (broadcastInDim S50000x6 ![0, 1] bcast_S1x6_S50000x6_0_1 (broadcastInDim S1x6 ![1] bcast_S6_S1x6_1 b))

/-- A row's entries less the row's maximum. -/
def shifted (z : FVec F S50000x6 .f32) : FVec F S50000x6 .f32 :=
  subf z (broadcastInDim S50000x6 ![0, 1] bcast_S50000x1_S50000x6_0_1 (broadcastInDim S50000x1 ![0] bcast_S50000_S50000x1_0
    (maximumf (broadcastInDim S50000 ![] bcast_S_S50000 (constant (F := F) S_ .f32 0xFF800000#32))
      (Host.reduce FloatOps.maximumf z (constant (F := F) S_ .f32 0xFF800000#32) reducesTo_S50000x6_S50000_d1 h_S_))))

/-- The logarithm of the softmax along each row: the shifted entries less the logarithm of the sum of their exponentials. -/
def logSoftmax (z : FVec F S50000x6 .f32) : FVec F S50000x6 .f32 :=
  subf (shifted z) (broadcastInDim S50000x6 ![0, 1] bcast_S50000x1_S50000x6_0_1
    (Host.log (broadcastInDim S50000x1 ![0] bcast_S50000_S50000x1_0
      (Host.reduceAdd (Host.exp (shifted z)) (constant (F := F) S_ .f32 0x00000000#32) reducesTo_S50000x6_S50000_d1 h_S_))))

/-- Everything after the first dense product up to the second one's left operand. -/
def layer1 (s : FVec F S50000x256 .f32) (src dst : IVec S400000 32) (w : FVec F S400000 .f32) (b : FVec F S256 .f32) :
    FVec F S50000x256 .f32 := leaky (agg1 s src dst w b)

/-- Everything after the second dense product. -/
def layer2 (s : FVec F S50000x6 .f32) (src dst : IVec S400000 32) (w : FVec F S400000 .f32) (b : FVec F S6 .f32) :
    FVec F S50000x6 .f32 := logSoftmax (agg2 s src dst w b)

end Cert.GcnTail

end
-- ==== Proof.KHost.lean ====
/-
  The host operations of the kernel's program around its two dense products, read as functions of the buffers they start
  from: before the first product the two weight matrices are rounded to bf16 (the identity at the ideal values); between
  the products stands the first layer's aggregation and the leaky rectifier; after the second the second layer's
  aggregation and the logarithm of the softmax. The edge list, the weights and the biases pass through unchanged.
-/
import proofs.«114903_j50697793961993_1_alg».proof.Proof.Gen.KernelIdeal.Launch
import proofs.«114903_j50697793961993_1_alg».proof.Proof.HostTail
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.StableHlo
open Cert.GcnTail

variable {F : FTy → Type} [FloatOps F]

/-! ## Before the first product -/

theorem pre_w1 (V : Valuation τ sig (Elt F)) :
    after hostOps0 V (main_v0 : DevRef τ sig) = truncf .bf16 (V (main_arg4 : DevRef τ sig)) bitsLt_bf16_f32 := by
  after_results
theorem pre_w2 (V : Valuation τ sig (Elt F)) :
    after hostOps0 V (main_v1 : DevRef τ sig) = truncf .bf16 (V (main_arg6 : DevRef τ sig)) bitsLt_bf16_f32 := by
  after_results
theorem pre_arg0 (V : Valuation τ sig (Elt F)) : after hostOps0 V (main_arg0 : DevRef τ sig) = V (main_arg0 : DevRef τ sig) := by
  after_results
theorem pre_arg1 (V : Valuation τ sig (Elt F)) : after hostOps0 V (main_arg1 : DevRef τ sig) = V (main_arg1 : DevRef τ sig) := by
  after_results
theorem pre_arg2 (V : Valuation τ sig (Elt F)) : after hostOps0 V (main_arg2 : DevRef τ sig) = V (main_arg2 : DevRef τ sig) := by
  after_results
theorem pre_arg3 (V : Valuation τ sig (Elt F)) : after hostOps0 V (main_arg3 : DevRef τ sig) = V (main_arg3 : DevRef τ sig) := by
  after_results
theorem pre_arg5 (V : Valuation τ sig (Elt F)) : after hostOps0 V (main_arg5 : DevRef τ sig) = V (main_arg5 : DevRef τ sig) := by
  after_results
theorem pre_arg7 (V : Valuation τ sig (Elt F)) : after hostOps0 V (main_arg7 : DevRef τ sig) = V (main_arg7 : DevRef τ sig) := by
  after_results

/-! ## Between the products -/

theorem mid_agg (V : Valuation τ sig (Elt F)) :
    after hostOps1 V (main_v18 : DevRef τ sig)
      = agg1 (V (main_v2 : DevRef τ sig)) (V (main_arg1 : DevRef τ sig)) (V (main_arg2 : DevRef τ sig))
          (V (main_arg3 : DevRef τ sig)) (V (main_arg5 : DevRef τ sig)) := by
  after_results_simp
  rfl
theorem mid_slope (V : Valuation τ sig (Elt F)) :
    after hostOps1 V (main_cst_1 : DevRef τ sig) = constant (F := F) S_ .f32 0x3C23D70A#32 := by
  after_results
theorem mid_leaky (V : Valuation τ sig (Elt F)) :
    after hostOps1_1 V (main_v19 : DevRef τ sig)
      = select (cmpf .oge (V (main_v18 : DevRef τ sig)) (broadcastInDim S50000x256 ![] Facts₀.bcast_S_S50000x256 (constant (F := F) S_ .f32 0x00000000#32)))
          (V (main_v18 : DevRef τ sig))
          (mulf (broadcastInDim S50000x256 ![] Facts₀.bcast_S_S50000x256 (id (V (main_cst_1 : DevRef τ sig)))) (V (main_v18 : DevRef τ sig))) := by
  after_results
  rfl

/-- The second product's left operand is the first layer's tail of the first product's result. -/
theorem mid (V : Valuation τ sig (Elt F)) :
    after hostOps1_1 (after hostOps1 V) (main_v19 : DevRef τ sig)
      = layer1 (V (main_v2 : DevRef τ sig)) (V (main_arg1 : DevRef τ sig)) (V (main_arg2 : DevRef τ sig))
          (V (main_arg3 : DevRef τ sig)) (V (main_arg5 : DevRef τ sig)) := by
  rw [mid_leaky, mid_agg, mid_slope]
  rfl

theorem mid_keep_v1 (V : Valuation τ sig (Elt F)) :
    after hostOps1_1 (after hostOps1 (V)) (main_v1 : DevRef τ sig) = V (main_v1 : DevRef τ sig) := by
  after_results_simp
theorem mid_keep_arg1 (V : Valuation τ sig (Elt F)) :
    after hostOps1_1 (after hostOps1 (V)) (main_arg1 : DevRef τ sig) = V (main_arg1 : DevRef τ sig) := by
  after_results_simp
theorem mid_keep_arg2 (V : Valuation τ sig (Elt F)) :
    after hostOps1_1 (after hostOps1 (V)) (main_arg2 : DevRef τ sig) = V (main_arg2 : DevRef τ sig) := by
  after_results_simp
theorem mid_keep_arg3 (V : Valuation τ sig (Elt F)) :
    after hostOps1_1 (after hostOps1 (V)) (main_arg3 : DevRef τ sig) = V (main_arg3 : DevRef τ sig) := by
  after_results_simp
theorem mid_keep_arg7 (V : Valuation τ sig (Elt F)) :
    after hostOps1_1 (after hostOps1 (V)) (main_arg7 : DevRef τ sig) = V (main_arg7 : DevRef τ sig) := by
  after_results_simp

/-! ## After the second product -/

theorem tail_agg (V : Valuation τ sig (Elt F)) :
    after hostOps2 V (main_v36 : DevRef τ sig)
      = agg2 (V (main_v20 : DevRef τ sig)) (V (main_arg1 : DevRef τ sig)) (V (main_arg2 : DevRef τ sig))
          (V (main_arg3 : DevRef τ sig)) (V (main_arg7 : DevRef τ sig)) := by
  after_results_simp
  rfl
theorem tail_lsm (V : Valuation τ sig (Elt F)) :
    after hostOps2_1 V (main_v37 : DevRef τ sig) = logSoftmax (V (main_v36 : DevRef τ sig)) := by
  after_results_simp
  simp only [cast_eq]
  rfl

/-- The program's result is the second layer's tail of the second product's result. -/
theorem tail (V : Valuation τ sig (Elt F)) :
    after hostOps2_1 (after hostOps2 V) (main_v37 : DevRef τ sig)
      = layer2 (V (main_v20 : DevRef τ sig)) (V (main_arg1 : DevRef τ sig)) (V (main_arg2 : DevRef τ sig))
          (V (main_arg3 : DevRef τ sig)) (V (main_arg7 : DevRef τ sig)) := by
  rw [tail_lsm, tail_agg]
  rfl

end Cert.KernelIdeal.HostSide

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibDenseProduct.lean ====
/-
  The dense product as one function of its two matrices, and the two spellings of it the programs use.

  For an m×k matrix A and a k×n matrix B, mm A B has at row a and column b the entry ∑ c, A(a, c) · B(c, b), over the
  extended reals. The host's plain dot_general of A and B is this array, and so is the kernel's matrix unit applied
  to A and B with the zero accumulator; the number format of either operand plays no part at the ideal values. A block of
  rows of mm A B is mm of the same rows of A with B: row a of the product reads row a of A only.
-/
import proofs.«114903_j50697793961993_1_alg».proof.Proof.LibMatmulPlain

noncomputable section

namespace Cert.LibDenseProduct

open Idealize.ShloMosaic Idealize.ShloMosaic.ValueIdx

variable {m k n : Nat} {φ₁ φ₂ : FTy}

/-- The product of an m×k and a k×n matrix, entry by entry. -/
def mm (A : FVec Ideal ⟨2, ![m, k]⟩ φ₁) (B : FVec Ideal ⟨2, ![k, n]⟩ φ₂) : FVec Ideal ⟨2, ![m, n]⟩ .f32 :=
  fun i => ∑ c : Fin k, A (ix2 (i 0) c) * B (ix2 c (i 1))

theorem mm_apply (A : FVec Ideal ⟨2, ![m, k]⟩ φ₁) (B : FVec Ideal ⟨2, ![k, n]⟩ φ₂) (a : Fin m) (b : Fin n) :
    mm A B (ix2 a b) = ∑ c : Fin k, A (ix2 a c) * B (ix2 c b) := rfl

/-- The host's plain product is `mm`. -/
theorem dotGeneral_plain_eq (prec : Option ContractPrecision) (A : FVec Ideal ⟨2, ![m, k]⟩ φ₁) (B : FVec Ideal ⟨2, ![k, n]⟩ φ₂) :
    Host.dotGeneral (DotDims.plain m k n) prec A B = mm A B := by
  funext i
  rw [eq_ix2 i]
  exact StackMember.dotGeneral_plain_apply prec A B _ _

/-- The matrix unit's plain product into the zero accumulator is `mm`. -/
theorem matmul_plain_zero_eq (prec : Option ContractPrecision) (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  rw [eq_ix2 i]
  exact Cert.LibMatmulPlain.matmul_plain_zero_apply prec A B _ _

/-- Rows of a product: if a small left factor `x0` holds, in its row `j 0`, row `i 0` of the large one `X`, then the small
    product at `j` is the large product at `i` whenever the two indices name the same column. -/
theorem mm_rows {M : Nat} (X : FVec Ideal ⟨2, ![M, k]⟩ φ₁) (W : FVec Ideal ⟨2, ![k, n]⟩ φ₂)
    (x0 : FVec Ideal ⟨2, ![m, k]⟩ φ₁) (j : (⟨2, ![m, n]⟩ : Shape).Idx) (i : (⟨2, ![M, n]⟩ : Shape).Idx)
    (hx : ∀ c : Fin k, x0 (ix2 (j 0) c) = X (ix2 (i 0) c)) (h1 : (j 1 : Fin n) = i 1) : mm x0 W j = mm X W i := by
  unfold mm
  refine Finset.sum_congr rfl fun c _ => ?_
  rw [hx c]
  exact congrArg (fun b : Fin n => X (ix2 (i 0) c) * W (ix2 c b)) h1

end Cert.LibDenseProduct

end
-- ==== Proof.KBlocks0.lean ====
/-
  The first dense product as the kernel's program leaves it. The product x · W1 is computed 1000 rows at a time: grid
  point t holds rows 1000·t … 1000·t + 999 of x and the whole of W1, multiplies them on the matrix unit into a zero
  accumulator, and writes the 1000 × 256 result back as rows 1000·t … of the output. Row a of a product reads row a of
  the left factor only, so what point t writes is the same rows of the one whole product; the fifty blocks tile the
  50000 rows, so after the last point the output array is the whole product mm x W1.
-/
import proofs.«114903_j50697793961993_1_alg».proof.Proof.Gen.KernelIdeal.Frame
import proofs.«114903_j50697793961993_1_alg».proof.Proof.LibDenseProduct
import Idealize.ShloMosaic.Lib.Pipeline.Value

set_option maxRecDepth 16384

noncomputable section

namespace Cert.KernelIdeal.Blocks0

open Idealize.ShloMosaic Idealize.ShloMosaic.TcCoe Idealize.ShloMosaic.ValueIdx Idealize.SL.Sem
open Cert.KernelIdeal Cert.KernelIdeal.Gen Cert.LibDenseProduct
open Idealize.ShloMosaic.Pipeline (Dat)

theorem hz : (![0, 0] : Fin 2 → Nat) = fun _ => 0 := funext fun a => by fin_cases a <;> rfl

/-! ## The first product -/

/-- What the body stores is the product of the two loaded blocks. -/
theorem pay0_eq (x0 : FVec Ideal S1000x3703 .f32) (x1 : FVec Ideal S3703x256 .bf16) :
    k0_pay1 (F := Ideal) x0 x1 = mm (m := 1000) (k := 3703) (n := 256) x0 x1 := by
  unfold k0_pay1
  show matmul (DotDims.plain 1000 3703 256) none (truncf .bf16 x0 bitsLt_bf16_f32) (shapeCast S3703x256 x1 _)
    (constant (F := Ideal) S1000x256 .f32 0x00000000#32) = _
  rw [shapeCast_self, matmul_plain_zero_eq]
  rfl

/-- The printed index maps over the grid: the left factor's block moves with the output's along the rows, and nothing
    else moves. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every block of rows is some point's. -/
theorem idx_onto0 : ∀ q0 : Fin 50, ∃ t : Fin cfg0.N, win0_2.index t = ![q0.val, 0] :=
  (by decide +kernel : ∀ q0 : Fin 50, ∃ t : Fin grid0.N, win0_2.index t = ![q0.val, 0])

variable (V : (c : Dev nD) → (b : Ref sig .tc) → Buf (Elt Ideal) ((c : Thread nD τ).loc b))

/-- The right factor's block at every point is the whole right factor. -/
theorem rhs0_eq (c : Dev nD) (t : Fin cfg0.N) : iblk0 V c 1 t = V c main_v0 := by
  obtain ⟨e0, e1, e2, e3, e4⟩ := idx_facts0 t
  funext y
  show V c main_v0 (((cfg0.win 1).blk t).view.emb y) = V c main_v0 y
  refine congrArg (V c main_v0) ?_
  funext a; apply Fin.ext
  match a with
  | ⟨0, _⟩ => show win0_1.index t (0 : Fin 2) * 3703 + 1 * (y 0).val = (y 0).val; omega
  | ⟨1, _⟩ => show win0_1.index t (1 : Fin 2) * 256 + 1 * (y 1).val = (y 1).val; omega

/-- What point `t` writes back is block `t` of the whole product. -/
theorem flushed0_eq (c : Dev nD) (t : Fin cfg0.N) :
    (dat0 V c).flushed 2 t
      = ((cfg0.win 2).blk t).view.read (Elt Ideal) (mm (m := 50000) (k := 3703) (n := 256) (φ₁ := .f32) (φ₂ := .bf16) (V c main_arg0) (V c main_v0)) := by
  show (cfg0.win 2).cut (grid0.coords t) ((dat0 V c).after 2 t) = _
  rw [after0_2]
  unfold out0_2
  rw [View.canon_unit_zero hz]
  simp only [View.ld_unit_zero (S := S1000x3703) hz, View.ld_unit_zero (S := S3703x256) hz]
  rw [pay0_eq, rhs0_eq]
  obtain ⟨e0, e1, e2, e3, e4⟩ := idx_facts0 t
  funext j
  show mm (m := 1000) (k := 3703) (n := 256) (iblk0 V c 0 t) (V c main_v0) j
    = mm (m := 50000) (k := 3703) (n := 256) (φ₁ := .f32) (φ₂ := .bf16) (V c main_arg0) (V c main_v0) (((cfg0.win 2).blk t).view.emb j)
  refine mm_rows (M := 50000) (m := 1000) (k := 3703) (n := 256) (V c main_arg0) (V c main_v0) (iblk0 V c 0 t) j
    (((cfg0.win 2).blk t).view.emb j) (fun c' => ?_) ?_
  · show V c main_arg0 (((cfg0.win 0).blk t).view.emb (ix2 (j 0) c')) = V c main_arg0 (ix2 ((((cfg0.win 2).blk t).view.emb j) 0) c')
    refine congrArg (V c main_arg0) ?_
    funext a; apply Fin.ext
    match a with
    | ⟨0, _⟩ => show win0_0.index t (0 : Fin 2) * 1000 + 1 * (j 0).val = win0_2.index t (0 : Fin 2) * 1000 + 1 * (j 0).val; omega
    | ⟨1, _⟩ => show win0_0.index t (1 : Fin 2) * 3703 + 1 * c'.val = c'.val; omega
  · apply Fin.ext
    show (j 1).val = win0_2.index t (1 : Fin 2) * 256 + 1 * (j 1).val
    omega

/-- An index of the output is in point `t`'s block iff each coordinate is in the block's range on its axis. -/
theorem mem_blk0 (t : Fin cfg0.N) (i : S50000x256.Idx) :
    i ∈ ((cfg0.win 2).blk t).view.set ↔ ∀ a : Fin 2, win0_2.index t a * S1000x256.size a ≤ (i a).val ∧ (i a).val < win0_2.index t a * S1000x256.size a + S1000x256.size a := by
  show i ∈ ((View.whole main_v2).slice (win0_2.rect t)).set ↔ _
  rw [View.set_slice_whole, Rect.mem_set_unit]
  exact Iff.rfl

/-- The blocks cover the output: row r lies in the block of point r / 1000. -/
theorem cover0 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 256 ≤ (i 1).val ∧ (i 1).val < win0_2.index t (1 : Fin 2) * 256 + 256; omega

/-- After the last point the output array is the whole product of the arrays the region found. -/
theorem final0 (c : Dev nD) :
    (dat0 V c).arrAt 2 cfg0.N = mm (m := 50000) (k := 3703) (n := 256) (φ₁ := .f32) (φ₂ := .bf16) (V c main_arg0) (V c main_v0) :=
  (dat0 V c).arrAt_eq_of_cover 2 _ (fun t _ => flushed0_eq V c t) cover0

end Cert.KernelIdeal.Blocks0

end
-- ==== Proof.KBlocks1.lean ====
/-
  The second dense product as the kernel's program leaves it. The product h · W2 is computed 5000 rows at a time: grid
  point t holds rows 5000·t … 5000·t + 4999 of h and the whole of W2, multiplies them on the matrix unit into a zero
  accumulator, and writes the 5000 × 6 result back as rows 5000·t … of the output. Row a of a product reads row a of the
  left factor only, so what point t writes is the same rows of the one whole product; the ten blocks tile the 50000
  rows, so after the last point the output array is the whole product mm h W2.
-/
import proofs.«114903_j50697793961993_1_alg».proof.Proof.Gen.KernelIdeal.Frame
import proofs.«114903_j50697793961993_1_alg».proof.Proof.LibDenseProduct
import Idealize.ShloMosaic.Lib.Pipeline.Value

set_option maxRecDepth 16384

noncomputable section

namespace Cert.KernelIdeal.Blocks1

open Idealize.ShloMosaic Idealize.ShloMosaic.TcCoe Idealize.ShloMosaic.ValueIdx Idealize.SL.Sem
open Cert.KernelIdeal Cert.KernelIdeal.Gen Cert.LibDenseProduct
open Idealize.ShloMosaic.Pipeline (Dat)

theorem hz : (![0, 0] : Fin 2 → Nat) = fun _ => 0 := funext fun a => by fin_cases a <;> rfl

/-! ## The second product -/

/-- What the body stores is the product of the two loaded blocks. -/
theorem pay1_eq (x0 : FVec Ideal S5000x256 .f32) (x1 : FVec Ideal S256x6 .bf16) :
    k1_pay1 (F := Ideal) x0 x1 = mm (m := 5000) (k := 256) (n := 6) x0 x1 := by
  unfold k1_pay1
  show matmul (DotDims.plain 5000 256 6) none (truncf .bf16 (shapeCast S5000x256 x0 _) bitsLt_bf16_f32) (shapeCast S256x6 x1 _)
    (constant (F := Ideal) S5000x6 .f32 0x00000000#32) = _
  rw [shapeCast_self, shapeCast_self, matmul_plain_zero_eq]
  rfl

/-- The printed index maps over the grid: the left factor's block moves with the output's along the rows, and nothing
    else moves. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

/-- Every block of rows is some point's. -/
theorem idx_onto1 : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- The right factor's block at every point is the whole right factor. -/
theorem rhs1_eq (c : Dev nD) (t : Fin cfg1.N) : iblk1 V c 1 t = V c main_v1 := by
  obtain ⟨e0, e1, e2, e3, e4⟩ := idx_facts1 t
  funext y
  show V c main_v1 (((cfg1.win 1).blk t).view.emb y) = V c main_v1 y
  refine congrArg (V c main_v1) ?_
  funext a; apply Fin.ext
  match a with
  | ⟨0, _⟩ => show win1_1.index t (0 : Fin 2) * 256 + 1 * (y 0).val = (y 0).val; omega
  | ⟨1, _⟩ => show win1_1.index t (1 : Fin 2) * 6 + 1 * (y 1).val = (y 1).val; omega

/-- What point `t` writes back is block `t` of the whole product. -/
theorem flushed1_eq (c : Dev nD) (t : Fin cfg1.N) :
    (dat1 V c).flushed 2 t
      = ((cfg1.win 2).blk t).view.read (Elt Ideal) (mm (m := 50000) (k := 256) (n := 6) (φ₁ := .f32) (φ₂ := .bf16) (V c main_v19) (V c main_v1)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x6) hz]
  rw [pay1_eq, rhs1_eq]
  obtain ⟨e0, e1, e2, e3, e4⟩ := idx_facts1 t
  funext j
  show mm (m := 5000) (k := 256) (n := 6) (iblk1 V c 0 t) (V c main_v1) j
    = mm (m := 50000) (k := 256) (n := 6) (φ₁ := .f32) (φ₂ := .bf16) (V c main_v19) (V c main_v1) (((cfg1.win 2).blk t).view.emb j)
  refine mm_rows (M := 50000) (m := 5000) (k := 256) (n := 6) (V c main_v19) (V c main_v1) (iblk1 V c 0 t) j
    (((cfg1.win 2).blk t).view.emb j) (fun c' => ?_) ?_
  · show V c main_v19 (((cfg1.win 0).blk t).view.emb (ix2 (j 0) c')) = V c main_v19 (ix2 ((((cfg1.win 2).blk t).view.emb j) 0) c')
    refine congrArg (V c main_v19) ?_
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * c'.val = c'.val; omega
  · apply Fin.ext
    show (j 1).val = win1_2.index t (1 : Fin 2) * 6 + 1 * (j 1).val
    omega

/-- An index of the output is in point `t`'s block iff each coordinate is in the block's range on its axis. -/
theorem mem_blk1 (t : Fin cfg1.N) (i : S50000x6.Idx) :
    i ∈ ((cfg1.win 2).blk t).view.set ↔ ∀ a : Fin 2, win1_2.index t a * S5000x6.size a ≤ (i a).val ∧ (i a).val < win1_2.index t a * S5000x6.size a + S5000x6.size a := by
  show i ∈ ((View.whole main_v20).slice (win1_2.rect t)).set ↔ _
  rw [View.set_slice_whole, Rect.mem_set_unit]
  exact Iff.rfl

/-- The blocks cover the output: row r lies in the block of point r / 5000. -/
theorem cover1 (i : S50000x6.Idx) : ∃ t : Fin cfg1.N, (cfg1.win 2).flush t = true ∧ i ∈ ((cfg1.win 2).blk t).view.set := by
  have hi0 : (i 0).val < 50000 := (i 0).isLt
  have hi1 : (i 1).val < 6 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 6 ≤ (i 1).val ∧ (i 1).val < win1_2.index t (1 : Fin 2) * 6 + 6; omega

/-- After the last point the output array is the whole product of the arrays the region found. -/
theorem final1 (c : Dev nD) :
    (dat1 V c).arrAt 2 cfg1.N = mm (m := 50000) (k := 256) (n := 6) (φ₁ := .f32) (φ₂ := .bf16) (V c main_v19) (V c main_v1) :=
  (dat1 V c).arrAt_eq_of_cover 2 _ (fun t _ => flushed1_eq V c t) cover1

end Cert.KernelIdeal.Blocks1

end
-- ==== Proof.Network.lean ====
/-
  The network as one function of its eight arguments, at the ideal values:
      out = layer2 (mm (layer1 (mm x W1) src dst w b1) W2) src dst w b2,
  two dense products with the shared tails between and after them. Both programs compute this function.
-/
import proofs.«114903_j50697793961993_1_alg».proof.Proof.HostTail
import proofs.«114903_j50697793961993_1_alg».proof.Proof.LibDenseProduct

noncomputable section

namespace Cert.GcnTail

open Idealize.ShloMosaic Cert.KernelIdeal Cert.LibDenseProduct

variable [Cert.KernelIdeal.Facts₀]

/-- The two-layer network's result from its arguments. -/
def network (x : FVec Ideal S50000x3703 .f32) (src dst : IVec S400000 32) (w : FVec Ideal S400000 .f32)
    (W1 : FVec Ideal S3703x256 .f32) (b1 : FVec Ideal S256 .f32) (W2 : FVec Ideal S256x6 .f32) (b2 : FVec Ideal S6 .f32) :
    FVec Ideal S50000x6 .f32 :=
  layer2 (mm (m := 50000) (k := 256) (n := 6) (layer1 (mm (m := 50000) (k := 3703) (n := 256) x W1) src dst w b1) W2) src dst w b2

end Cert.GcnTail

end
-- ==== Proof.KValue.lean ====
/-
  The kernel's program's result as a function of its arguments. Walking the boundaries back from the last one: the
  result is the second layer's tail of the second region's output; that output is the whole product of the region's two
  operand arrays; the left one is the first layer's tail of the first region's output, itself the whole product of x and
  the rounded W1; the right one is the rounded W2. The edge list, the weights and the biases are written by nothing on
  the way. Rounding a matrix to bf16 is the identity at the ideal values, so the result is the network of the arguments.
-/
import proofs.«114903_j50697793961993_1_alg».proof.Proof.KHost
import proofs.«114903_j50697793961993_1_alg».proof.Proof.KBlocks0
import proofs.«114903_j50697793961993_1_alg».proof.Proof.KBlocks1
import proofs.«114903_j50697793961993_1_alg».proof.Proof.Network

noncomputable section

namespace Cert.KernelIdeal.Value

open Cert.KernelIdeal Cert.KernelIdeal.Gen Idealize.ShloMosaic Idealize.ShloMosaic.TcCoe Idealize.SL.Sem
open Cert.GcnTail Cert.LibDenseProduct Cert.KernelIdeal.HostSide

variable (m : (ℓ : Loc nD τ sig) → Buf (Elt Ideal) ℓ) (ρ : Dev nD → PrngReg) (c : Dev nD)

/-! ## The arguments at the boundaries -/

theorem w1_arg0 : W1 m ρ c (Proc.devRef .tc main_arg0) = m ((c : Thread nD τ).loc main_arg0) := pre_arg0 (W0 m ρ c)
theorem w1_arg1 : W1 m ρ c (Proc.devRef .tc main_arg1) = m ((c : Thread nD τ).loc main_arg1) := pre_arg1 (W0 m ρ c)
theorem w1_arg2 : W1 m ρ c (Proc.devRef .tc main_arg2) = m ((c : Thread nD τ).loc main_arg2) := pre_arg2 (W0 m ρ c)
theorem w1_arg3 : W1 m ρ c (Proc.devRef .tc main_arg3) = m ((c : Thread nD τ).loc main_arg3) := pre_arg3 (W0 m ρ c)
theorem w1_arg5 : W1 m ρ c (Proc.devRef .tc main_arg5) = m ((c : Thread nD τ).loc main_arg5) := pre_arg5 (W0 m ρ c)
theorem w1_arg7 : W1 m ρ c (Proc.devRef .tc main_arg7) = m ((c : Thread nD τ).loc main_arg7) := pre_arg7 (W0 m ρ c)
theorem w2_arg1 : W2 m ρ c (Proc.devRef .tc main_arg1) = m ((c : Thread nD τ).loc main_arg1) :=
  (W2_of_ne m ρ c main_arg1 (by decide)).trans (w1_arg1 m ρ c)
theorem w2_arg2 : W2 m ρ c (Proc.devRef .tc main_arg2) = m ((c : Thread nD τ).loc main_arg2) :=
  (W2_of_ne m ρ c main_arg2 (by decide)).trans (w1_arg2 m ρ c)
theorem w2_arg3 : W2 m ρ c (Proc.devRef .tc main_arg3) = m ((c : Thread nD τ).loc main_arg3) :=
  (W2_of_ne m ρ c main_arg3 (by decide)).trans (w1_arg3 m ρ c)
theorem w2_arg5 : W2 m ρ c (Proc.devRef .tc main_arg5) = m ((c : Thread nD τ).loc main_arg5) :=
  (W2_of_ne m ρ c main_arg5 (by decide)).trans (w1_arg5 m ρ c)
theorem w2_arg7 : W2 m ρ c (Proc.devRef .tc main_arg7) = m ((c : Thread nD τ).loc main_arg7) :=
  (W2_of_ne m ρ c main_arg7 (by decide)).trans (w1_arg7 m ρ c)
theorem w4_arg1 : W4 m ρ c (Proc.devRef .tc main_arg1) = m ((c : Thread nD τ).loc main_arg1) :=
  (mid_keep_arg1 (W2 m ρ c)).trans (w2_arg1 m ρ c)
theorem w4_arg2 : W4 m ρ c (Proc.devRef .tc main_arg2) = m ((c : Thread nD τ).loc main_arg2) :=
  (mid_keep_arg2 (W2 m ρ c)).trans (w2_arg2 m ρ c)
theorem w4_arg3 : W4 m ρ c (Proc.devRef .tc main_arg3) = m ((c : Thread nD τ).loc main_arg3) :=
  (mid_keep_arg3 (W2 m ρ c)).trans (w2_arg3 m ρ c)
theorem w4_arg7 : W4 m ρ c (Proc.devRef .tc main_arg7) = m ((c : Thread nD τ).loc main_arg7) :=
  (mid_keep_arg7 (W2 m ρ c)).trans (w2_arg7 m ρ c)
theorem w5_arg1 : W5 m ρ c (Proc.devRef .tc main_arg1) = m ((c : Thread nD τ).loc main_arg1) :=
  (W5_of_ne m ρ c main_arg1 (by decide)).trans (w4_arg1 m ρ c)
theorem w5_arg2 : W5 m ρ c (Proc.devRef .tc main_arg2) = m ((c : Thread nD τ).loc main_arg2) :=
  (W5_of_ne m ρ c main_arg2 (by decide)).trans (w4_arg2 m ρ c)
theorem w5_arg3 : W5 m ρ c (Proc.devRef .tc main_arg3) = m ((c : Thread nD τ).loc main_arg3) :=
  (W5_of_ne m ρ c main_arg3 (by decide)).trans (w4_arg3 m ρ c)
theorem w5_arg7 : W5 m ρ c (Proc.devRef .tc main_arg7) = m ((c : Thread nD τ).loc main_arg7) :=
  (W5_of_ne m ρ c main_arg7 (by decide)).trans (w4_arg7 m ρ c)

/-! ## The two rounded weight matrices -/

theorem w1_v0 : W1 m ρ c (Proc.devRef .tc main_v0)
    = (truncf .bf16 (m ((c : Thread nD τ).loc main_arg4) : FVec Ideal S3703x256 .f32) bitsLt_bf16_f32 : FVec Ideal S3703x256 .bf16) :=
  pre_w1 (W0 m ρ c)
theorem w4_v1 : W4 m ρ c (Proc.devRef .tc main_v1)
    = (truncf .bf16 (m ((c : Thread nD τ).loc main_arg6) : FVec Ideal S256x6 .f32) bitsLt_bf16_f32 : FVec Ideal S256x6 .bf16) :=
  (mid_keep_v1 (W2 m ρ c)).trans ((W2_of_ne m ρ c main_v1 (by decide)).trans (pre_w2 (W0 m ρ c)))

/-! ## The two products and the result -/

/-- The first region's output: the whole product of x and the rounded W1. -/
theorem w2_v2 : W2 m ρ c (Proc.devRef .tc main_v2)
    = mm (m := 50000) (k := 3703) (n := 256) (φ₁ := .f32) (φ₂ := .bf16) (m ((c : Thread nD τ).loc main_arg0))
        (truncf .bf16 (m ((c : Thread nD τ).loc main_arg4)) bitsLt_bf16_f32) := by
  refine (W2_arr m ρ c 2).trans ((Blocks0.final0 (V1 m ρ) c).trans ?_)
  rw [show V1 m ρ c main_arg0 = m ((c : Thread nD τ).loc main_arg0) from w1_arg0 m ρ c,
    show V1 m ρ c main_v0 = _ from w1_v0 m ρ c]

/-- The second region's left operand: the first layer's tail of the first product. -/
theorem w4_v19 : W4 m ρ c (Proc.devRef .tc main_v19)
    = layer1 (mm (m := 50000) (k := 3703) (n := 256) (φ₁ := .f32) (φ₂ := .bf16) (m ((c : Thread nD τ).loc main_arg0))
        (truncf .bf16 (m ((c : Thread nD τ).loc main_arg4)) bitsLt_bf16_f32))
        (m ((c : Thread nD τ).loc main_arg1)) (m ((c : Thread nD τ).loc main_arg2)) (m ((c : Thread nD τ).loc main_arg3))
        (m ((c : Thread nD τ).loc main_arg5)) := by
  refine (mid (W2 m ρ c)).trans ?_
  rw [w2_v2, w2_arg1, w2_arg2, w2_arg3, w2_arg5]

/-- The second region's output: the whole product of its two operands. -/
theorem w5_v20 : W5 m ρ c (Proc.devRef .tc main_v20)
    = mm (m := 50000) (k := 256) (n := 6) (φ₁ := .f32) (φ₂ := .bf16)
        (layer1 (mm (m := 50000) (k := 3703) (n := 256) (φ₁ := .f32) (φ₂ := .bf16) (m ((c : Thread nD τ).loc main_arg0))
          (truncf .bf16 (m ((c : Thread nD τ).loc main_arg4)) bitsLt_bf16_f32))
          (m ((c : Thread nD τ).loc main_arg1)) (m ((c : Thread nD τ).loc main_arg2)) (m ((c : Thread nD τ).loc main_arg3))
          (m ((c : Thread nD τ).loc main_arg5)))
        (truncf .bf16 (m ((c : Thread nD τ).loc main_arg6)) bitsLt_bf16_f32) := by
  refine (W5_arr m ρ c 2).trans ((Blocks1.final1 (V4 m ρ) c).trans ?_)
  rw [show V4 m ρ c main_v19 = _ from w4_v19 m ρ c, show V4 m ρ c main_v1 = _ from w4_v1 m ρ c]

/-- The program's result buffer at the last boundary is the network of the launch arguments. -/
theorem out_eq : W7 m ρ c (Proc.devRef .tc main_v37)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (tail (W5 m ρ c)).trans ?_
  rw [w5_v20, w5_arg1, w5_arg2, w5_arg3, w5_arg7]
  rfl

end Cert.KernelIdeal.Value

end
-- ==== Proof.RefRun.lean ====
/-
  The reference program's run, read back. Its entry function is a straight line of host operations once the two functions
  it calls (the leaky rectifier, which itself calls a select, and the logarithm of the softmax) are written out at their
  call sites over the buffers each call owns. The line is cut at the two dense products into four stretches: up to the
  first layer's aggregation, the rectifier, up to the second layer's aggregation, the logarithm of the softmax. Every
  weakly fair execution terminates with every buffer at the fold of the operations over the launch contents; the result
  buffer is then the second layer's tail of the second dense product, whose left operand is the first layer's tail of the
  first dense product, and the arguments are never written.
-/
import proofs.«114903_j50697793961993_1_alg».proof.Proof.Gen.ReferenceIdeal
import proofs.«114903_j50697793961993_1_alg».proof.Proof.HostTail
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The first dense product, then the first layer's aggregation. -/
abbrev opsA : List (HloOp τ sig (Elt F)) :=
  [ StableHlo.binary main_arg0 main_arg4 main_v0 ((fun l r => Host.dotGeneral dot_S50000x3703_S3703x256_S50000x256_1_0_0_1_n_n none l r) : (⟨S50000x3703, .f32⟩ : BufTy).Contents (Elt F) → (⟨S3703x256, .f32⟩ : BufTy).Contents (Elt F) → (⟨S50000x256, .f32⟩ : BufTy).Contents (Elt F)),
    StableHlo.nullary main_c (constantI S_ 32 0#32),
    StableHlo.unary main_c main_v1 (broadcastInDim S400000 ![] bcast_S_S400000 : (⟨S_, .i32⟩ : BufTy).Contents (Elt F) → (⟨S400000, .i32⟩ : BufTy).Contents (Elt F)),
    StableHlo.binary main_arg1 main_v1 main_v2 (cmpi .slt : (⟨S400000, .i32⟩ : BufTy).Contents (Elt F) → (⟨S400000, .i32⟩ : BufTy).Contents (Elt F) → (⟨S400000, .i1⟩ : BufTy).Contents (Elt F)),
    StableHlo.nullary main_c_0 (constantI S_ 32 50000#32),
    StableHlo.unary main_c_0 main_v3 (broadcastInDim S400000 ![] bcast_S_S400000 : (⟨S_, .i32⟩ : BufTy).Contents (Elt F) → (⟨S400000, .i32⟩ : BufTy).Contents (Elt F)),
    StableHlo.binary main_arg1 main_v3 main_v4 (addi : (⟨S400000, .i32⟩ : BufTy).Contents (Elt F) → (⟨S400000, .i32⟩ : BufTy).Contents (Elt F) → (⟨S400000, .i32⟩ : BufTy).Contents (Elt F)),
    StableHlo.ternary main_v2 main_v4 main_arg1 main_v5 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v5 main_v6 (broadcastInDim S400000x1 ![0] bcast_S400000_S400000x1_0 : (⟨S400000, .i32⟩ : BufTy).Contents (Elt F) → (⟨S400000x1, .i32⟩ : BufTy).Contents (Elt F)),
    StableHlo.binary main_v0 main_v6 main_v7 ((fun x i => Host.gather gather_S50000x256_S400000x1_S400000x256_1_0_n_n_0_1_1256 x i) : (⟨S50000x256, .f32⟩ : BufTy).Contents (Elt F) → (⟨S400000x1, .i32⟩ : BufTy).Contents (Elt F) → (⟨S400000x256, .f32⟩ : BufTy).Contents (Elt F)),
    StableHlo.unary main_arg3 main_v8 (broadcastInDim S400000x1 ![0] bcast_S400000_S400000x1_0 : (⟨S400000, .f32⟩ : BufTy).Contents (Elt F) → (⟨S400000x1, .f32⟩ : BufTy).Contents (Elt F)),
    StableHlo.unary main_v8 main_v9 (broadcastInDim S400000x256 ![0, 1] bcast_S400000x1_S400000x256_0_1 : (⟨S400000x1, .f32⟩ : BufTy).Contents (Elt F) → (⟨S400000x256, .f32⟩ : BufTy).Contents (Elt F)),
    StableHlo.binary main_v7 main_v9 main_v10 (mulf : (⟨S400000x256, .f32⟩ : BufTy).Contents (Elt F) → (⟨S400000x256, .f32⟩ : BufTy).Contents (Elt F) → (⟨S400000x256, .f32⟩ : BufTy).Contents (Elt F)),
    StableHlo.nullary main_cst (constant S_ .f32 0x00000000#32),
    StableHlo.unary main_cst main_v11 (broadcastInDim S50000x256 ![] bcast_S_S50000x256 : (⟨S_, .f32⟩ : BufTy).Contents (Elt F) → (⟨S50000x256, .f32⟩ : BufTy).Contents (Elt F)),
    StableHlo.unary main_arg2 main_v12 (broadcastInDim S400000x1 ![0] bcast_S400000_S400000x1_0 : (⟨S400000, .i32⟩ : BufTy).Contents (Elt F) → (⟨S400000x1, .i32⟩ : BufTy).Contents (Elt F)),
    StableHlo.ternary main_v11 main_v12 main_v10 main_v13 ((fun x i u => Host.scatterAdd scatter_S50000x256_S400000x1_S400000x256_1_0_0_1 x i u) : (⟨S50000x256, .f32⟩ : BufTy).Contents (Elt F) → (⟨S400000x1, .i32⟩ : BufTy).Contents (Elt F) → (⟨S400000x256, .f32⟩ : BufTy).Contents (Elt F) → (⟨S50000x256, .f32⟩ : BufTy).Contents (Elt F)),
    StableHlo.unary main_arg5 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S50000x256 ![0, 1] bcast_S1x256_S50000x256_0_1 : (⟨S1x256, .f32⟩ : BufTy).Contents (Elt F) → (⟨S50000x256, .f32⟩ : BufTy).Contents (Elt F)),
    StableHlo.binary main_v13 main_v15 main_v16 (addf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x3C23D70A#32) ]

/-- The leaky rectifier's operations over its call's buffers, the select it calls written out last. -/
abbrev opsL : List (HloOp τ sig (Elt F)) :=
  [ StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S50000x256, .f32⟩) (broadcastInDim S50000x256 ![] bcast_S_S50000x256),
    StableHlo.TRef.binary (.of main_v16 : StableHlo.TRef sig ⟨S50000x256, .f32⟩) (.of main_call0_v0 : StableHlo.TRef sig ⟨S50000x256, .f32⟩) (.of main_call0_v1 : StableHlo.TRef sig ⟨S50000x256, .i1⟩) (cmpf .oge),
    StableHlo.TRef.unary (.of main_cst_1 : StableHlo.TRef sig ⟨S_, .f32⟩) (.of main_call0_v2 : StableHlo.TRef sig ⟨S_, .f32⟩) id,
    StableHlo.TRef.unary (.of main_call0_v2 : StableHlo.TRef sig ⟨S_, .f32⟩) (.of main_call0_v3 : StableHlo.TRef sig ⟨S50000x256, .f32⟩) (broadcastInDim S50000x256 ![] bcast_S_S50000x256),
    StableHlo.TRef.binary (.of main_call0_v3 : StableHlo.TRef sig ⟨S50000x256, .f32⟩) (.of main_v16 : StableHlo.TRef sig ⟨S50000x256, .f32⟩) (.of main_call0_v4 : StableHlo.TRef sig ⟨S50000x256, .f32⟩) mulf,
    StableHlo.TRef.ternary (.of main_call0_v1 : StableHlo.TRef sig ⟨S50000x256, .i1⟩) (.of main_v16 : StableHlo.TRef sig ⟨S50000x256, .f32⟩) (.of main_call0_v4 : StableHlo.TRef sig ⟨S50000x256, .f32⟩) (.of main_v17 : StableHlo.TRef sig ⟨S50000x256, .f32⟩) select ]

/-- The second dense product, then the second layer's aggregation. -/
abbrev opsB : List (HloOp τ sig (Elt F)) :=
  [ StableHlo.binary main_v17 main_arg6 main_v18 ((fun l r => Host.dotGeneral dot_S50000x256_S256x6_S50000x6_1_0_0_1_n_n none l r) : (⟨S50000x256, .f32⟩ : BufTy).Contents (Elt F) → (⟨S256x6, .f32⟩ : BufTy).Contents (Elt F) → (⟨S50000x6, .f32⟩ : BufTy).Contents (Elt F)),
    StableHlo.nullary main_c_2 (constantI S_ 32 0#32),
    StableHlo.unary main_c_2 main_v19 (broadcastInDim S400000 ![] bcast_S_S400000 : (⟨S_, .i32⟩ : BufTy).Contents (Elt F) → (⟨S400000, .i32⟩ : BufTy).Contents (Elt F)),
    StableHlo.binary main_arg1 main_v19 main_v20 (cmpi .slt : (⟨S400000, .i32⟩ : BufTy).Contents (Elt F) → (⟨S400000, .i32⟩ : BufTy).Contents (Elt F) → (⟨S400000, .i1⟩ : BufTy).Contents (Elt F)),
    StableHlo.nullary main_c_3 (constantI S_ 32 50000#32),
    StableHlo.unary main_c_3 main_v21 (broadcastInDim S400000 ![] bcast_S_S400000 : (⟨S_, .i32⟩ : BufTy).Contents (Elt F) → (⟨S400000, .i32⟩ : BufTy).Contents (Elt F)),
    StableHlo.binary main_arg1 main_v21 main_v22 (addi : (⟨S400000, .i32⟩ : BufTy).Contents (Elt F) → (⟨S400000, .i32⟩ : BufTy).Contents (Elt F) → (⟨S400000, .i32⟩ : BufTy).Contents (Elt F)),
    StableHlo.ternary main_v20 main_v22 main_arg1 main_v23 (select : (⟨S400000, .i1⟩ : BufTy).Contents (Elt F) → (⟨S400000, .i32⟩ : BufTy).Contents (Elt F) → (⟨S400000, .i32⟩ : BufTy).Contents (Elt F) → (⟨S400000, .i32⟩ : BufTy).Contents (Elt F)),
    StableHlo.unary main_v23 main_v24 (broadcastInDim S400000x1 ![0] bcast_S400000_S400000x1_0 : (⟨S400000, .i32⟩ : BufTy).Contents (Elt F) → (⟨S400000x1, .i32⟩ : BufTy).Contents (Elt F)),
    StableHlo.binary main_v18 main_v24 main_v25 ((fun x i => Host.gather gather_S50000x6_S400000x1_S400000x6_1_0_n_n_0_1_16 x i) : (⟨S50000x6, .f32⟩ : BufTy).Contents (Elt F) → (⟨S400000x1, .i32⟩ : BufTy).Contents (Elt F) → (⟨S400000x6, .f32⟩ : BufTy).Contents (Elt F)),
    StableHlo.unary main_arg3 main_v26 (broadcastInDim S400000x1 ![0] bcast_S400000_S400000x1_0 : (⟨S400000, .f32⟩ : BufTy).Contents (Elt F) → (⟨S400000x1, .f32⟩ : BufTy).Contents (Elt F)),
    StableHlo.unary main_v26 main_v27 (broadcastInDim S400000x6 ![0, 1] bcast_S400000x1_S400000x6_0_1 : (⟨S400000x1, .f32⟩ : BufTy).Contents (Elt F) → (⟨S400000x6, .f32⟩ : BufTy).Contents (Elt F)),
    StableHlo.binary main_v25 main_v27 main_v28 (mulf : (⟨S400000x6, .f32⟩ : BufTy).Contents (Elt F) → (⟨S400000x6, .f32⟩ : BufTy).Contents (Elt F) → (⟨S400000x6, .f32⟩ : BufTy).Contents (Elt F)),
    StableHlo.nullary main_cst_4 (constant S_ .f32 0x00000000#32),
    StableHlo.unary main_cst_4 main_v29 (broadcastInDim S50000x6 ![] bcast_S_S50000x6 : (⟨S_, .f32⟩ : BufTy).Contents (Elt F) → (⟨S50000x6, .f32⟩ : BufTy).Contents (Elt F)),
    StableHlo.unary main_arg2 main_v30 (broadcastInDim S400000x1 ![0] bcast_S400000_S400000x1_0 : (⟨S400000, .i32⟩ : BufTy).Contents (Elt F) → (⟨S400000x1, .i32⟩ : BufTy).Contents (Elt F)),
    StableHlo.ternary main_v29 main_v30 main_v28 main_v31 ((fun x i u => Host.scatterAdd scatter_S50000x6_S400000x1_S400000x6_1_0_0_1 x i u) : (⟨S50000x6, .f32⟩ : BufTy).Contents (Elt F) → (⟨S400000x1, .i32⟩ : BufTy).Contents (Elt F) → (⟨S400000x6, .f32⟩ : BufTy).Contents (Elt F) → (⟨S50000x6, .f32⟩ : BufTy).Contents (Elt F)),
    StableHlo.unary main_arg7 main_v32 (broadcastInDim S1x6 ![1] bcast_S6_S1x6_1 : (⟨S6, .f32⟩ : BufTy).Contents (Elt F) → (⟨S1x6, .f32⟩ : BufTy).Contents (Elt F)),
    StableHlo.unary main_v32 main_v33 (broadcastInDim S50000x6 ![0, 1] bcast_S1x6_S50000x6_0_1 : (⟨S1x6, .f32⟩ : BufTy).Contents (Elt F) → (⟨S50000x6, .f32⟩ : BufTy).Contents (Elt F)),
    StableHlo.binary main_v31 main_v33 main_v34 (addf : (⟨S50000x6, .f32⟩ : BufTy).Contents (Elt F) → (⟨S50000x6, .f32⟩ : BufTy).Contents (Elt F) → (⟨S50000x6, .f32⟩ : BufTy).Contents (Elt F)) ]

/-- The logarithm of the softmax over its call's buffers. -/
abbrev opsS : List (HloOp τ sig (Elt F)) :=
  [ StableHlo.TRef.nullary (.of main_call1_cst : StableHlo.TRef sig ⟨S_, .f32⟩) (constant S_ .f32 0xFF800000#32),
    StableHlo.TRef.binary (.of main_v34 : StableHlo.TRef sig ⟨S50000x6, .f32⟩) (.of main_call1_cst : StableHlo.TRef sig ⟨S_, .f32⟩) (.of main_call1_v0 : StableHlo.TRef sig ⟨S50000, .f32⟩) (fun x v => Host.reduce FloatOps.maximumf x v reducesTo_S50000x6_S50000_d1 h_S_),
    StableHlo.TRef.nullary (.of main_call1_cst_0 : StableHlo.TRef sig ⟨S_, .f32⟩) (constant S_ .f32 0xFF800000#32),
    StableHlo.TRef.unary (.of main_call1_cst_0 : StableHlo.TRef sig ⟨S_, .f32⟩) (.of main_call1_v1 : StableHlo.TRef sig ⟨S50000, .f32⟩) (broadcastInDim S50000 ![] bcast_S_S50000),
    StableHlo.TRef.binary (.of main_call1_v1 : StableHlo.TRef sig ⟨S50000, .f32⟩) (.of main_call1_v0 : StableHlo.TRef sig ⟨S50000, .f32⟩) (.of main_call1_v2 : StableHlo.TRef sig ⟨S50000, .f32⟩) maximumf,
    StableHlo.TRef.unary (.of main_call1_v2 : StableHlo.TRef sig ⟨S50000, .f32⟩) (.of main_call1_v3 : StableHlo.TRef sig ⟨S50000x1, .f32⟩) (broadcastInDim S50000x1 ![0] bcast_S50000_S50000x1_0),
    StableHlo.TRef.unary (.of main_call1_v3 : StableHlo.TRef sig ⟨S50000x1, .f32⟩) (.of main_call1_v4 : StableHlo.TRef sig ⟨S50000x6, .f32⟩) (broadcastInDim S50000x6 ![0, 1] bcast_S50000x1_S50000x6_0_1),
    StableHlo.TRef.binary (.of main_v34 : StableHlo.TRef sig ⟨S50000x6, .f32⟩) (.of main_call1_v4 : StableHlo.TRef sig ⟨S50000x6, .f32⟩) (.of main_call1_v5 : StableHlo.TRef sig ⟨S50000x6, .f32⟩) subf,
    StableHlo.TRef.unary (.of main_call1_v5 : StableHlo.TRef sig ⟨S50000x6, .f32⟩) (.of main_call1_v6 : StableHlo.TRef sig ⟨S50000x6, .f32⟩) Host.exp,
    StableHlo.TRef.nullary (.of main_call1_cst_1 : StableHlo.TRef sig ⟨S_, .f32⟩) (constant S_ .f32 0x00000000#32),
    StableHlo.TRef.binary (.of main_call1_v6 : StableHlo.TRef sig ⟨S50000x6, .f32⟩) (.of main_call1_cst_1 : StableHlo.TRef sig ⟨S_, .f32⟩) (.of main_call1_v7 : StableHlo.TRef sig ⟨S50000, .f32⟩) (fun x v => Host.reduceAdd x v reducesTo_S50000x6_S50000_d1 h_S_),
    StableHlo.TRef.unary (.of main_call1_v7 : StableHlo.TRef sig ⟨S50000, .f32⟩) (.of main_call1_v8 : StableHlo.TRef sig ⟨S50000x1, .f32⟩) (broadcastInDim S50000x1 ![0] bcast_S50000_S50000x1_0),
    StableHlo.TRef.unary (.of main_call1_v8 : StableHlo.TRef sig ⟨S50000x1, .f32⟩) (.of main_call1_v9 : StableHlo.TRef sig ⟨S50000x1, .f32⟩) Host.log,
    StableHlo.TRef.unary (.of main_call1_v9 : StableHlo.TRef sig ⟨S50000x1, .f32⟩) (.of main_call1_v10 : StableHlo.TRef sig ⟨S50000x6, .f32⟩) (broadcastInDim S50000x6 ![0, 1] bcast_S50000x1_S50000x6_0_1),
    StableHlo.TRef.binary (.of main_call1_v5 : StableHlo.TRef sig ⟨S50000x6, .f32⟩) (.of main_call1_v10 : StableHlo.TRef sig ⟨S50000x6, .f32⟩) (.of main_v35 : StableHlo.TRef sig ⟨S50000x6, .f32⟩) subf ]

/-- The whole entry function, in order. -/
abbrev ops : List (HloOp τ sig (Elt F)) := opsA ++ (opsL ++ (opsB ++ opsS))

set_option maxRecDepth 4096 in
set_option maxHeartbeats 2000000 in
/-- The entry function is that straight line: the called functions' bodies unfolded at their calls, and sequencing
    reassociated. -/
theorem main_eq (c : Dev nD) : main (F := F) c = seq ops := by
  simp only [main, fn_leaky_relu.body, fn_where.body, fn_log_softmax.body, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub ..⟩
theorem opsL_sub : (opsL : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem opsB_sub : (opsB : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩
theorem opsS_sub : (opsS : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.binary_bufs_sub ..⟩

theorem ops_sub : (ops : List (HloOp τ sig (Elt F))).Forall fun op => op.bufs ⊆ tcRefs τ sig := by
  refine List.forall_iff_forall_mem.mpr fun op h => ?_
  rcases List.mem_append.mp h with h | h
  · exact List.forall_iff_forall_mem.mp opsA_sub op h
  rcases List.mem_append.mp h with h | h
  · exact List.forall_iff_forall_mem.mp opsL_sub op h
  rcases List.mem_append.mp h with h | h
  · exact List.forall_iff_forall_mem.mp opsB_sub op h
  · exact List.forall_iff_forall_mem.mp opsS_sub op h

/-- No operation allocates a buffer. -/
theorem ops_fresh : ∀ op ∈ (ops : List (HloOp τ sig (Elt F))), op.fresh = ∅ := by
  intro _ h; (repeat (cases h with | head => rfl | tail _ h => ?_)); exact nomatch h

/-- Every weakly fair execution of the entry function terminates, and every final state has each buffer at the
    operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HostRun

end
-- ==== Proof.RefValue.lean ====
/-
  The reference's result as a function of its arguments: the second layer's tail of the second dense product, whose
  left operand is the first layer's tail of the first dense product. The two dense products are the host's plain
  products, read at the ideal values as the one function mm; everything around them is the shared tail, never opened.
-/
import proofs.«114903_j50697793961993_1_alg».proof.Proof.RefRun
import proofs.«114903_j50697793961993_1_alg».proof.Proof.LibDenseProduct

noncomputable section

namespace Cert.ReferenceIdeal.HostRun

open Cert.ReferenceIdeal Cert.ReferenceIdeal.Gen Idealize.ShloMosaic Idealize.ShloMosaic.TcCoe Idealize.SL.Sem Idealize.ShloMosaic.StableHlo
open Cert.GcnTail Cert.LibDenseProduct

variable {F : FTy → Type} [FloatOps F] [Cert.KernelIdeal.Facts₀]

/-- Two lines' contents one after the other are the concatenation's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_split (V : Valuation τ sig (Elt F)) : after ops V = after opsS (after opsB (after opsL (after opsA V))) := by
  show after (opsA ++ (opsL ++ (opsB ++ opsS))) V = _
  rw [after_append, after_append, after_append]

/-! ## The first layer -/

theorem refA (V : Valuation τ sig (Elt F)) :
    after opsA V (main_v16 : DevRef τ sig)
      = agg1 (Host.dotGeneral dot_S50000x3703_S3703x256_S50000x256_1_0_0_1_n_n none (V (main_arg0 : DevRef τ sig)) (V (main_arg4 : DevRef τ sig)))
          (V (main_arg1 : DevRef τ sig)) (V (main_arg2 : DevRef τ sig)) (V (main_arg3 : DevRef τ sig)) (V (main_arg5 : DevRef τ sig)) := by
  after_results_simp
  rfl
theorem refA_slope (V : Valuation τ sig (Elt F)) :
    after opsA V (main_cst_1 : DevRef τ sig) = constant (F := F) S_ .f32 0x3C23D70A#32 := by
  after_results_simp
theorem refL (V : Valuation τ sig (Elt F)) :
    after opsL V (main_v17 : DevRef τ sig)
      = select (cmpf .oge (V (main_v16 : DevRef τ sig)) (broadcastInDim S50000x256 ![] bcast_S_S50000x256 (constant (F := F) S_ .f32 0x00000000#32)))
          (V (main_v16 : DevRef τ sig))
          (mulf (broadcastInDim S50000x256 ![] bcast_S_S50000x256 (id (V (main_cst_1 : DevRef τ sig)))) (V (main_v16 : DevRef τ sig))) := by
  after_results
  rfl
theorem refAL (V : Valuation τ sig (Elt F)) :
    after opsL (after opsA V) (main_v17 : DevRef τ sig)
      = layer1 (Host.dotGeneral dot_S50000x3703_S3703x256_S50000x256_1_0_0_1_n_n none (V (main_arg0 : DevRef τ sig)) (V (main_arg4 : DevRef τ sig)))
          (V (main_arg1 : DevRef τ sig)) (V (main_arg2 : DevRef τ sig)) (V (main_arg3 : DevRef τ sig)) (V (main_arg5 : DevRef τ sig)) := by
  rw [refL, refA, refA_slope]
  rfl

theorem refAL_keep_arg1 (V : Valuation τ sig (Elt F)) :
    after opsL (after opsA V) (main_arg1 : DevRef τ sig) = V (main_arg1 : DevRef τ sig) := by
  after_results_simp
theorem refAL_keep_arg2 (V : Valuation τ sig (Elt F)) :
    after opsL (after opsA V) (main_arg2 : DevRef τ sig) = V (main_arg2 : DevRef τ sig) := by
  after_results_simp
theorem refAL_keep_arg3 (V : Valuation τ sig (Elt F)) :
    after opsL (after opsA V) (main_arg3 : DevRef τ sig) = V (main_arg3 : DevRef τ sig) := by
  after_results_simp
theorem refAL_keep_arg6 (V : Valuation τ sig (Elt F)) :
    after opsL (after opsA V) (main_arg6 : DevRef τ sig) = V (main_arg6 : DevRef τ sig) := by
  after_results_simp
theorem refAL_keep_arg7 (V : Valuation τ sig (Elt F)) :
    after opsL (after opsA V) (main_arg7 : DevRef τ sig) = V (main_arg7 : DevRef τ sig) := by
  after_results_simp

/-! ## The second layer -/

theorem refB (V : Valuation τ sig (Elt F)) :
    after opsB V (main_v34 : DevRef τ sig)
      = agg2 (Host.dotGeneral dot_S50000x256_S256x6_S50000x6_1_0_0_1_n_n none (V (main_v17 : DevRef τ sig)) (V (main_arg6 : DevRef τ sig)))
          (V (main_arg1 : DevRef τ sig)) (V (main_arg2 : DevRef τ sig)) (V (main_arg3 : DevRef τ sig)) (V (main_arg7 : DevRef τ sig)) := by
  after_results_simp
  rfl
theorem refS (V : Valuation τ sig (Elt F)) :
    after opsS V (main_v35 : DevRef τ sig) = logSoftmax (V (main_v34 : DevRef τ sig)) := by
  after_results_simp
  simp only [cast_eq]
  rfl

/-- The result buffer after the whole line. -/
theorem ref_out (V : Valuation τ sig (Elt F)) :
    after ops V (main_v35 : DevRef τ sig)
      = layer2 (Host.dotGeneral dot_S50000x256_S256x6_S50000x6_1_0_0_1_n_n none
          (layer1 (Host.dotGeneral dot_S50000x3703_S3703x256_S50000x256_1_0_0_1_n_n none (V (main_arg0 : DevRef τ sig)) (V (main_arg4 : DevRef τ sig)))
            (V (main_arg1 : DevRef τ sig)) (V (main_arg2 : DevRef τ sig)) (V (main_arg3 : DevRef τ sig)) (V (main_arg5 : DevRef τ sig)))
          (V (main_arg6 : DevRef τ sig)))
          (V (main_arg1 : DevRef τ sig)) (V (main_arg2 : DevRef τ sig)) (V (main_arg3 : DevRef τ sig)) (V (main_arg7 : DevRef τ sig)) := by
  rw [ops_split, refS, refB, refAL, refAL_keep_arg1, refAL_keep_arg2, refAL_keep_arg3, refAL_keep_arg6, refAL_keep_arg7]
  rfl

theorem ref_keep_arg0 (V : Valuation τ sig (Elt F)) : after ops V (main_arg0 : DevRef τ sig) = V (main_arg0 : DevRef τ sig) := by
  rw [ops_split]; after_results_simp
theorem ref_keep_arg1 (V : Valuation τ sig (Elt F)) : after ops V (main_arg1 : DevRef τ sig) = V (main_arg1 : DevRef τ sig) := by
  rw [ops_split]; after_results_simp
theorem ref_keep_arg2 (V : Valuation τ sig (Elt F)) : after ops V (main_arg2 : DevRef τ sig) = V (main_arg2 : DevRef τ sig) := by
  rw [ops_split]; after_results_simp
theorem ref_keep_arg3 (V : Valuation τ sig (Elt F)) : after ops V (main_arg3 : DevRef τ sig) = V (main_arg3 : DevRef τ sig) := by
  rw [ops_split]; after_results_simp
theorem ref_keep_arg4 (V : Valuation τ sig (Elt F)) : after ops V (main_arg4 : DevRef τ sig) = V (main_arg4 : DevRef τ sig) := by
  rw [ops_split]; after_results_simp
theorem ref_keep_arg5 (V : Valuation τ sig (Elt F)) : after ops V (main_arg5 : DevRef τ sig) = V (main_arg5 : DevRef τ sig) := by
  rw [ops_split]; after_results_simp
theorem ref_keep_arg6 (V : Valuation τ sig (Elt F)) : after ops V (main_arg6 : DevRef τ sig) = V (main_arg6 : DevRef τ sig) := by
  rw [ops_split]; after_results_simp
theorem ref_keep_arg7 (V : Valuation τ sig (Elt F)) : after ops V (main_arg7 : DevRef τ sig) = V (main_arg7 : DevRef τ sig) := by
  rw [ops_split]; after_results_simp

/-- At the ideal values the two host products are the function `mm`. -/
theorem ref_out_ideal [Cert.KernelIdeal.Facts₀] (V : Valuation τ sig (Elt Ideal)) :
    after ops V (main_v35 : DevRef τ sig)
      = layer2 (mm (m := 50000) (k := 256) (n := 6) (φ₁ := .f32) (φ₂ := .f32)
          (layer1 (mm (m := 50000) (k := 3703) (n := 256) (φ₁ := .f32) (φ₂ := .f32) (V (main_arg0 : DevRef τ sig)) (V (main_arg4 : DevRef τ sig)))
            (V (main_arg1 : DevRef τ sig)) (V (main_arg2 : DevRef τ sig)) (V (main_arg3 : DevRef τ sig)) (V (main_arg5 : DevRef τ sig)))
          (V (main_arg6 : DevRef τ sig)))
          (V (main_arg1 : DevRef τ sig)) (V (main_arg2 : DevRef τ sig)) (V (main_arg3 : DevRef τ sig)) (V (main_arg7 : DevRef τ sig)) := by
  rw [ref_out]
  rw [show ∀ (A : FVec Ideal S50000x3703 .f32) (B : FVec Ideal S3703x256 .f32),
      Host.dotGeneral dot_S50000x3703_S3703x256_S50000x256_1_0_0_1_n_n none A B = mm (m := 50000) (k := 3703) (n := 256) A B from
    fun A B => dotGeneral_plain_eq (m := 50000) (k := 3703) (n := 256) none A B]
  rw [show ∀ (A : FVec Ideal S50000x256 .f32) (B : FVec Ideal S256x6 .f32),
      Host.dotGeneral dot_S50000x256_S256x6_S50000x6_1_0_0_1_n_n none A B = mm (m := 50000) (k := 256) (n := 6) A B from
    fun A B => dotGeneral_plain_eq (m := 50000) (k := 256) (n := 6) none A B]

end Cert.ReferenceIdeal.HostRun

end
-- ==== Proof.lean ====
/-
  A two-layer graph convolution network over 50000 nodes and 400000 weighted edges, its two dense products on the
  matrix unit, against the same network in plain jnp.

  Both programs compute
      out = logsoftmax( A · (lrelu( A · (x · W1) + b1 ) · W2) + b2 ),
  where A · s stands for the edge aggregation (gather the source node's row of s for every edge, scale it by the edge's
  weight, add it into the destination node's row) and lrelu is the leaky rectifier with slope 0.01. The reference forms
  x · W1 and h · W2 as two host products of the whole matrices. The kernel's program rounds W1 and W2 to bf16 and forms
  x · W1 in fifty blocks of 1000 rows and h · W2 in ten blocks of 5000 rows, each block a product of the block's rows
  (rounded to bf16) with the whole right factor into a zero accumulator; everything around the two products — the index
  normalisation, the gathers, the scatter-additions, the biases, the rectifier, the logarithm of the softmax — is the same
  sequence of host operations in both programs.

  At the ideal values a change of number format is the identity and both kinds of product read, at row a and column b,
  ∑ c, A(a, c) · B(c, b); row a of a product reads row a of the left factor only, so the blocks of rows of the kernel's
  products are the rows of the whole products, and the blocks tile all rows. Hence the two dense products agree as whole
  arrays, and the shared operations are applied to equal arrays: the results are equal, entry by entry, for all inputs
  (finite or not: the only law used is the definition of the product as a sum). The ideal pass rewrote nothing, so the
  idealized kernel is the kernel's own text and nothing is owed for it.

  The three frames: the kernel's two programs by the generated frame theorems; the reference's by its run, which leaves
  every argument buffer unwritten.
-/
import proofs.«114903_j50697793961993_1_alg».proof.Defs
import proofs.«114903_j50697793961993_1_alg».proof.Proof.Gen.Kernel
import proofs.«114903_j50697793961993_1_alg».proof.Proof.Gen.Kernel.Frame
import proofs.«114903_j50697793961993_1_alg».proof.Proof.Gen.KernelIdeal
import proofs.«114903_j50697793961993_1_alg».proof.Proof.Gen.KernelIdeal.Frame
import proofs.«114903_j50697793961993_1_alg».proof.Proof.Gen.ReferenceIdeal
import proofs.«114903_j50697793961993_1_alg».proof.Proof.Gen.Pre_finite_inputs
import proofs.«114903_j50697793961993_1_alg».proof.Proof.KRun
import proofs.«114903_j50697793961993_1_alg».proof.Proof.KValue
import proofs.«114903_j50697793961993_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono
    (fun r h c =>
      ⟨(h c Cert.ReferenceIdeal.main_arg0).trans (Cert.ReferenceIdeal.HostRun.ref_keep_arg0 _),
       (h c Cert.ReferenceIdeal.main_arg1).trans (Cert.ReferenceIdeal.HostRun.ref_keep_arg1 _),
       (h c Cert.ReferenceIdeal.main_arg2).trans (Cert.ReferenceIdeal.HostRun.ref_keep_arg2 _),
       (h c Cert.ReferenceIdeal.main_arg3).trans (Cert.ReferenceIdeal.HostRun.ref_keep_arg3 _),
       (h c Cert.ReferenceIdeal.main_arg4).trans (Cert.ReferenceIdeal.HostRun.ref_keep_arg4 _),
       (h c Cert.ReferenceIdeal.main_arg5).trans (Cert.ReferenceIdeal.HostRun.ref_keep_arg5 _),
       (h c Cert.ReferenceIdeal.main_arg6).trans (Cert.ReferenceIdeal.HostRun.ref_keep_arg6 _),
       (h c Cert.ReferenceIdeal.main_arg7).trans (Cert.ReferenceIdeal.HostRun.ref_keep_arg7 _)⟩)
    (Cert.ReferenceIdeal.HostRun.run_all (F := Ideal) m ρ)

/-- The ideal pass rewrote no operation. -/
theorem preserves : Cert.preserves_Kernel_KernelIdeal := trivial

/-- Both programs end with the network of the arguments in their result buffers. -/
theorem algebraic : Cert.algebraic_KernelIdeal_ReferenceIdeal := by
  intro m ρ m' ρ' _ hagree
  refine ⟨fun c => Cert.GcnTail.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    ?_, ?_⟩
  · exact (θ_run Cert.KernelIdeal.defs _ _).mono
      (fun r h c => ⟨(h c).1.trans (Cert.KernelIdeal.Value.out_eq m ρ c), (h c).2⟩)
      (Cert.KernelIdeal.Run.run_named (F := Ideal) m ρ)
  · refine (θ_run Cert.ReferenceIdeal.defs _ _).mono (fun r h c => ⟨?_,
       (h c Cert.ReferenceIdeal.main_arg0).trans (Cert.ReferenceIdeal.HostRun.ref_keep_arg0 _),
       (h c Cert.ReferenceIdeal.main_arg1).trans (Cert.ReferenceIdeal.HostRun.ref_keep_arg1 _),
       (h c Cert.ReferenceIdeal.main_arg2).trans (Cert.ReferenceIdeal.HostRun.ref_keep_arg2 _),
       (h c Cert.ReferenceIdeal.main_arg3).trans (Cert.ReferenceIdeal.HostRun.ref_keep_arg3 _),
       (h c Cert.ReferenceIdeal.main_arg4).trans (Cert.ReferenceIdeal.HostRun.ref_keep_arg4 _),
       (h c Cert.ReferenceIdeal.main_arg5).trans (Cert.ReferenceIdeal.HostRun.ref_keep_arg5 _),
       (h c Cert.ReferenceIdeal.main_arg6).trans (Cert.ReferenceIdeal.HostRun.ref_keep_arg6 _),
       (h c Cert.ReferenceIdeal.main_arg7).trans (Cert.ReferenceIdeal.HostRun.ref_keep_arg7 _)⟩)
      (Cert.ReferenceIdeal.HostRun.run_all (F := Ideal) m' ρ')
    refine (h c Cert.ReferenceIdeal.main_v35).trans ((Cert.ReferenceIdeal.HostRun.ref_out_ideal (launchContents m' c)).trans ?_)
    obtain ⟨e0, e1, e2, e3, e4, e5, e6, e7⟩ := hagree c
    show Cert.GcnTail.network
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
